-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)) (v3 : (c : Dev Cert.KernelIdeal.nD) → Buf (Elt Ideal) ((c.tc : Thread Cert.KernelIdeal.nD Cert.KernelIdeal.τ).loc Cert.KernelIdeal.main_v14_2)) (v4 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_v14_2) = v3 c
          ∧ r.2.mem ((c.tc : Thread Cert.KernelIdeal.nD Cert.KernelIdeal.τ).loc Cert.KernelIdeal.main_v14_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x2048 : Shape := ⟨2, ![2048, 2048]⟩
abbrev S2048 : Shape := ⟨1, ![2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_arg15 : FVec F S2048 .f32) (main_arg16 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  main_v83

def fn_part3 {F : FTy → Type} [FloatOps F] (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_v48 main_v49 main_v50

def fn_part1 {F : FTy → Type} [FloatOps F] (main_arg4 : FVec F S2048x4096 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2048x4096 .f32) (main_arg1 : FVec F S2048x4096 .f32) (main_arg2 : FVec F S2048x4096 .f32) (main_arg3 : FVec F S2048x4096 .f32) (main_arg4 : FVec F S2048x4096 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x2048 .f32) (main_arg12 : FVec F S2048x2048 .f32) (main_arg13 : FVec F S2048 .f32) (main_arg14 : FVec F S2048 .f32) (main_arg15 : FVec F S2048 .f32) (main_arg16 : FVec F S2048 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2048x4096 : Shape := ⟨2, ![2048, 4096]⟩
abbrev S2048x2048 : Shape := ⟨2, ![2048, 2048]⟩
abbrev S2048 : Shape := ⟨1, ![2048]⟩
abbrev S2048x1 : Shape := ⟨2, ![2048, 1]⟩
abbrev S2048x512 : Shape := ⟨2, ![2048, 512]⟩
abbrev S256x2048 : Shape := ⟨2, ![256, 2048]⟩
abbrev S256x1 : Shape := ⟨2, ![256, 1]⟩
abbrev S256x512 : Shape := ⟨2, ![256, 512]⟩

abbrev nBuf : Space → Nat
  | .hbm => 35
  | .vmem => 42
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048x4096, .bf16⟩
  | .hbm, ⟨18, _⟩ => ⟨S2048x4096, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S2048x4096, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S256x1, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  bitsLt_bf16_f32 : FTy.bits .bf16 < FTy.bits .f32
  shapeCasts_S2048_S2048x1 : S2048.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x4096.size a
  hwx0_0 : ∀ i : grid0.Coords, EltTy.bits .bf16 = 32 ∨ (Rect.block (s := S2048x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x4096.size a
  hwx0_1 : ∀ i : grid0.Coords, EltTy.bits .bf16 = 32 ∨ (Rect.block (s := S2048x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S2048x1.size a
  hwx0_10 : ∀ i : grid0.Coords, EltTy.bits .f32 = 32 ∨ (Rect.block (s := S2048x1) S256x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S2048x1.size a
  hwx0_11 : ∀ i : grid0.Coords, EltTy.bits .f32 = 32 ∨ (Rect.block (s := S2048x1) S256x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S2048x1.size a
  hwx0_12 : ∀ i : grid0.Coords, EltTy.bits .f32 = 32 ∨ (Rect.block (s := S2048x1) S256x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S2048x1.size a
  hwx0_13 : ∀ i : grid0.Coords, EltTy.bits .f32 = 32 ∨ (Rect.block (s := S2048x1) S256x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S2048x4096.size a
  hwx0_14 : ∀ i : grid0.Coords, EltTy.bits .f32 = 32 ∨ (Rect.block (s := S2048x4096) S256x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S2048x4096.size a
  hwx0_15 : ∀ i : grid0.Coords, EltTy.bits .f32 = 32 ∨ (Rect.block (s := S2048x4096) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S2048x4096.size a
  hwx0_16 : ∀ i : grid0.Coords, EltTy.bits .f32 = 32 ∨ (Rect.block (s := S2048x4096) S256x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x512.size a ≤ S2048x4096.size a
  hwx0_17 : ∀ i : grid0.Coords, EltTy.bits .f32 = 32 ∨ (Rect.block (s := S2048x4096) S256x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x512.size a ≤ S2048x4096.size a
  hwx0_18 : ∀ i : grid0.Coords, EltTy.bits .f32 = 32 ∨ (Rect.block (s := S2048x4096) S256x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x512.size a ≤ S2048x4096.size a
  hwx0_19 : ∀ i : grid0.Coords, EltTy.bits .f32 = 32 ∨ (Rect.block (s := S2048x4096) S256x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x512.size a ≤ S2048x4096.size a
  hwx0_20 : ∀ i : grid0.Coords, EltTy.bits .f32 = 32 ∨ (Rect.block (s := S2048x4096) S256x512.size (cc0_transform_20 i) (hinb0_20 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S256x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S256x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12) S256x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13) S256x1.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S256x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg3) S256x512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg4) S256x512.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v14_0) S256x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v14_1) S256x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_2) S256x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v14_3) S256x512.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S2048x2048 : Shape := ⟨2, ![2048, 2048]⟩
abbrev S2048 : Shape := ⟨1, ![2048]⟩
abbrev S2048x1 : Shape := ⟨2, ![2048, 1]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S2048x1, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x1, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S2048x4096, .f32⟩
  | .hbm, ⟨32, _⟩ => ⟨S2048x1, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x1, .f32⟩
  | .hbm, ⟨39, _⟩ => ⟨S2048x4096, .f32⟩
  | .hbm, ⟨40, _⟩ => ⟨S2048x4096, .f32⟩
  | .hbm, ⟨41, _⟩ => ⟨S2048x4096, .f32⟩
  | .hbm, ⟨42, _⟩ => ⟨S_, .f32⟩
  | .hbm, ⟨43, _⟩ => ⟨S2048x4096, .f32⟩
  | .hbm, ⟨44, _⟩ => ⟨S2048x4096, .f32⟩
  | .hbm, ⟨45, _⟩ => ⟨S2048x4096, .f32⟩
  | .hbm, ⟨46, _⟩ => ⟨S2048x4096, .f32⟩
  | .hbm, ⟨47, _⟩ => ⟨S2048x4096, .i1⟩
  | .hbm, ⟨48, _⟩ => ⟨S2048x4096, .f32⟩
  | .hbm, ⟨49, _⟩ => ⟨S2048x4096, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S2048x4096, .f32⟩
  | .hbm, ⟨58, _⟩ => ⟨S2048x4096, .f32⟩
  | .hbm, ⟨59, _⟩ => ⟨S2048x4096, .f32⟩
  | .hbm, ⟨60, _⟩ => ⟨S2048x4096, .f32⟩
  | .hbm, ⟨61, _⟩ => ⟨S2048x4096, .f32⟩
  | .hbm, ⟨62, _⟩ => ⟨S2048x4096, .f32⟩
  | .hbm, ⟨63, _⟩ => ⟨S2048x4096, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S2048x4096, .f32⟩
  | .hbm, ⟨69, _⟩ => ⟨S2048x4096, .f32⟩
  | .hbm, ⟨70, _⟩ => ⟨S2048x4096, .f32⟩
  | .hbm, ⟨71, _⟩ => ⟨S2048x4096, .f32⟩
  | .hbm, ⟨72, _⟩ => ⟨S2048x4096, .f32⟩
  | .hbm, ⟨73, _⟩ => ⟨S_, .f32⟩
  | .hbm, ⟨74, _⟩ => ⟨S2048x4096, .f32⟩
  | .hbm, ⟨75, _⟩ => ⟨S2048x4096, .f32⟩
  | .hbm, ⟨76, _⟩ => ⟨S_, .f32⟩
  | .hbm, ⟨77, _⟩ => ⟨S2048x4096, .f32⟩
  | .hbm, ⟨78, _⟩ => ⟨S2048x4096, .f32⟩
  | .hbm, ⟨79, _⟩ => ⟨S2048x4096, .f32⟩
  | .hbm, ⟨80, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst : Ref sig .tc := ⟨.hbm, 73, rfl⟩
abbrev main_v41 : Ref sig .tc := ⟨.hbm, 74, rfl⟩
abbrev main_v42 : Ref sig .tc := ⟨.hbm, 75, rfl⟩
abbrev main_cst_0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  bcast_S_S2048x4096 : S_.BroadcastsInDim S2048x4096 (![] : Fin 0 → Fin S2048x4096.rank)
  dot_S2048x2048_S2048x4096_S2048x4096_1_0_0_1_n_n_wf : DotDims.WF S2048x2048 S2048x4096 S2048x4096 [1] [0] [0] [1] [] []

variable [Facts₀]

def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf

class Facts : Prop extends Facts₀ where

variable [Facts]
-- ==== Proof.Cell.lean ====
/-
  One step of an exponentially gated recurrent cell with a normaliser and a stabiliser state, as a function of its
  seventeen argument arrays, entry by entry, over the extended reals.

  For a hidden unit `r` and a batch column `c` each of the four gates has the pre-activation
      pre W R b (r, c) = ∑ₖ W(r,k)·x(k,c) + ∑ₖ R(r,k)·h(k,c) + b(r),
  an inner product of row `r` of an input weight with column `c` of the input, the same with a recurrent weight and the
  previous hidden state, and a bias that depends on the unit only.  With `i, f, o, z` the four pre-activations and
  `m', c', n'` the previous stabiliser, cell and normaliser entries,
      m  = max (log σ(f) + m') i                     the new stabiliser,
      ι  = exp (i − m),   φ = exp (log σ(f) + m' − m)  the stabilised input and forget gates,
      c  = φ·c' + ι·tanh z,     n = φ·n' + φ,
      h  = σ(o) · tanh (c / n),
  where `log σ(f)` is spelt without overflow as `−(max(−f, 0) + log(1 + e^{−|−f|}))`.
  Every operation is the exact one on the extended reals; nothing here needs the entries to be finite.
-/
import Idealize.ShloMosaic.PureOps.Ideal
import Idealize.ShloMosaic.PureOps.Ideal.Laws
import Idealize.ShloMosaic.Lib.ValueIdx

noncomputable section

namespace Cert.Slstm

open Idealize.ShloMosaic Idealize.ShloMosaic.ValueIdx

/-- A batch-shaped array: hidden units by batch columns. -/
abbrev Act := (⟨2, ![2048, 4096]⟩ : Shape).Idx → EReal
/-- A square weight: hidden units by contracted units. -/
abbrev Wgt := (⟨2, ![2048, 2048]⟩ : Shape).Idx → EReal
/-- A bias: one entry per hidden unit. -/
abbrev Bias := (⟨1, ![2048]⟩ : Shape).Idx → EReal

/-- `|x|` as the larger of `x` and `−x`. -/
def mag (x : EReal) : EReal := max x (-x)

/-- `log σ(f) = −softplus(−f)`, with `softplus(y) = max(y, 0) + log(1 + e^{−|y|})`. -/
def logSig (f : EReal) : EReal := -(max (-f) 0 + Ideal.log1p (Ideal.exp (-(mag (-f)))))

/-- The new stabiliser `m = max (log σ(f) + m') i`. -/
def stab (i f mp : EReal) : EReal := max (logSig f + mp) i

/-- The stabilised input gate `exp (i − m)`. -/
def gateIn (i f mp : EReal) : EReal := Ideal.exp (i - stab i f mp)

/-- The stabilised forget gate `exp (log σ(f) + m' − m)`. -/
def gateFg (i f mp : EReal) : EReal := Ideal.exp (logSig f + mp - stab i f mp)

/-- The new cell entry `φ·c' + ι·tanh z`. -/
def cellC (i f z mp cp : EReal) : EReal := gateFg i f mp * cp + gateIn i f mp * Ideal.tanh z

/-- The new normaliser entry `φ·n' + φ`. -/
def cellN (i f mp np : EReal) : EReal := gateFg i f mp * np + gateFg i f mp

/-- The new hidden entry `σ(o)·tanh (c / n)`. -/
def cellH (i f o z mp cp np : EReal) : EReal :=
  Ideal.logistic o * Ideal.tanh (Ideal.div (cellC i f z mp cp) (cellN i f mp np))

/-- A gate's pre-activation at unit `r`, column `c`: two inner products over the 2048 contracted units and the unit's bias. -/
def pre (W R : Wgt) (b : Bias) (x h : Act) (r : Fin 2048) (c : Fin 4096) : EReal :=
  (∑ k : Fin 2048, W (ix2 r k) * x (ix2 k c)) + (∑ k : Fin 2048, R (ix2 r k) * h (ix2 k c)) + b (ix1 r)

/-- The seventeen argument arrays, in the order the programs take them. -/
structure Args where
  x : Act
  h : Act
  cp : Act
  np : Act
  mp : Act
  wi : Wgt
  wf : Wgt
  wo : Wgt
  wz : Wgt
  ri : Wgt
  rf : Wgt
  ro : Wgt
  rz : Wgt
  bi : Bias
  bf : Bias
  bo : Bias
  bz : Bias

namespace Args

variable (a : Args)

/-- The input gate's pre-activation. -/
def preI (r : Fin 2048) (c : Fin 4096) : EReal := pre a.wi a.ri a.bi a.x a.h r c
/-- The forget gate's pre-activation. -/
def preF (r : Fin 2048) (c : Fin 4096) : EReal := pre a.wf a.rf a.bf a.x a.h r c
/-- The output gate's pre-activation. -/
def preO (r : Fin 2048) (c : Fin 4096) : EReal := pre a.wo a.ro a.bo a.x a.h r c
/-- The cell input's pre-activation. -/
def preZ (r : Fin 2048) (c : Fin 4096) : EReal := pre a.wz a.rz a.bz a.x a.h r c

/-- The new stabiliser array. -/
def outM : Act := fun j => stab (a.preI (j 0) (j 1)) (a.preF (j 0) (j 1)) (a.mp j)
/-- The new cell array. -/
def outC : Act := fun j => cellC (a.preI (j 0) (j 1)) (a.preF (j 0) (j 1)) (a.preZ (j 0) (j 1)) (a.mp j) (a.cp j)
/-- The new normaliser array. -/
def outN : Act := fun j => cellN (a.preI (j 0) (j 1)) (a.preF (j 0) (j 1)) (a.mp j) (a.np j)
/-- The new hidden array. -/
def outH : Act := fun j =>
  cellH (a.preI (j 0) (j 1)) (a.preF (j 0) (j 1)) (a.preO (j 0) (j 1)) (a.preZ (j 0) (j 1)) (a.mp j) (a.cp j) (a.np j)

theorem outM_ix (r : Fin 2048) (c : Fin 4096) :
    a.outM (ix2 r c) = stab (a.preI r c) (a.preF r c) (a.mp (ix2 r c)) := rfl
theorem outC_ix (r : Fin 2048) (c : Fin 4096) :
    a.outC (ix2 r c) = cellC (a.preI r c) (a.preF r c) (a.preZ r c) (a.mp (ix2 r c)) (a.cp (ix2 r c)) := rfl
theorem outN_ix (r : Fin 2048) (c : Fin 4096) :
    a.outN (ix2 r c) = cellN (a.preI r c) (a.preF r c) (a.mp (ix2 r c)) (a.np (ix2 r c)) := rfl
theorem outH_ix (r : Fin 2048) (c : Fin 4096) :
    a.outH (ix2 r c) = cellH (a.preI r c) (a.preF r c) (a.preO r c) (a.preZ r c) (a.mp (ix2 r c)) (a.cp (ix2 r c))
      (a.np (ix2 r c)) := rfl

end Args

/-! ## The spellings the two programs use, entry by entry -/

/-- A float comparison "not equal" of a value with itself is false: the extended reals have no unordered value. -/
theorem cmp_one_self (x : EReal) : Ideal.cmp .one x x = 0#1 := by simp [Ideal.cmp]
theorem cmp_une_self (x : EReal) : Ideal.cmp .une x x = 0#1 := by simp [Ideal.cmp]

/-- The word of `1.0` denotes the real one. -/
theorem one_word : Ideal.ofBits .f32 0x3F800000#32 = 1 := by
  simp [Ideal.ofBits, Ideal.ieee, -EReal.coe_mul]; norm_num

/-- `log σ` as a vector unit spells it: negations written `0 − ·`, the self-comparison guard never taken. -/
theorem logSig_sub (f : EReal) :
    0 - Scalar.select (Ideal.cmp .one (0 - f - 0) (0 - f - 0)) (0 - f + 0)
        (max (0 - f) 0 + Ideal.log1p (Ideal.exp (0 - max (0 - f - 0) (-(0 - f - 0))))) = logSig f := by
  rw [cmp_one_self, select_zero]
  simp only [zero_sub, sub_zero, logSig, mag]

/-- `log σ` as the host spells it: plain negations, the self-comparison guard never taken. -/
theorem logSig_neg (f : EReal) :
    -Scalar.select (Ideal.cmp .une (-f - 0) (-f - 0)) (-f + 0)
        (max (-f) 0 + Ideal.log1p (Ideal.exp (-(max (-f - 0) (-(-f - 0)))))) = logSig f := by
  rw [cmp_une_self, select_zero]
  simp only [sub_zero, logSig, mag]

/-- The logistic function written out: `1 / (1 + e^{−o})` with the extended division. -/
theorem logistic_spelt (o : EReal) : Ideal.div 1 (1 + Ideal.exp (-o)) = Ideal.logistic o := rfl

end Cert.Slstm

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.BlockGates.lean ====
/-
  A gate's pre-activation on ONE block of the grid.  A grid point holds 256 hidden units and 512 batch columns: the
  block of a weight is its 256 rows with all 2048 contracted units, the block of the input (or of the previous hidden
  state) is all 2048 contracted units of its 512 columns, and the bias block is a column of 256 entries.  Entry (p, q) of
  the block's pre-activation is the inner product of weight row p with input column q, the same for the recurrent
  weight and the hidden state, plus the unit's bias: no partial sums, the contraction is over all 2048 units at once.
-/
import proofs.«113979_j38199439131020_1_alg».proof.Proof.Gen.KernelIdeal.Skeleton
import proofs.«113979_j38199439131020_1_alg».proof.Proof.Cell
import proofs.«113979_j38199439131020_1_alg».proof.Proof.LibDenseEntry
import proofs.«113979_j38199439131020_1_alg».proof.Proof.LibColumn
import Idealize.ShloMosaic.Lib.Pipeline.Value

noncomputable section

namespace Cert.Slstm.Block

open Idealize.ShloMosaic Idealize.ShloMosaic.ValueIdx Cert.KernelIdeal Cert.KernelIdeal.Gen

/-- The pre-activation of a gate at entry (p, q) of a block, from the block's weight rows, bias column and input columns. -/
def bpre (W R : FVec Ideal S256x2048 .bf16) (b : FVec Ideal S256x1 .f32) (x h : FVec Ideal S2048x512 .bf16)
    (p : Fin 256) (q : Fin 512) : EReal :=
  (∑ k : Fin 2048, W (ix2 p k) * x (ix2 k q)) + (∑ k : Fin 2048, R (ix2 p k) * h (ix2 k q)) + b (ix2 p (0 : Fin 1))

/-- The matrix unit's product of a weight block with an input block, into a zero accumulator, at entry (p, q): the inner
    product of row p with column q. -/
theorem dense_at (W : FVec Ideal S256x2048 .bf16) (x : FVec Ideal S2048x512 .bf16) (p : Fin 256) (q : Fin 512) :
    matmul dot_S256x2048_S2048x512_S256x512_1_0_0_1_n_n none W x (constant (F := Ideal) S256x512 .f32 0x00000000#32) (ix2 p q)
      = ∑ k : Fin 2048, W (ix2 p k) * x (ix2 k q) :=
  Cert.LibDenseEntry.matmul_plain_zero_apply dot_S256x2048_S2048x512_S256x512_1_0_0_1_n_n rfl rfl rfl rfl rfl rfl none W x p q

/-- The bias column spread over the block's 512 columns, at entry (p, q): the unit's bias. -/
theorem bias_at (b : FVec Ideal S256x1 .f32) (p : Fin 256) (q : Fin 512) :
    broadcastTo S256x512 (shapeCast S256x1 b shapeCasts_S256x1_S256x1) broadcasts_S256x1_S256x512 (ix2 p q) = b (ix2 p (0 : Fin 1)) := by
  rw [shapeCast_self]
  exact Cert.LibColumn.broadcastTo_a1_ab_apply b broadcasts_S256x1_S256x512 p q

/-- The input gate's and the forget gate's pre-activation blocks (the first two of the body's four). -/
theorem pay6_at (x0 x1 : FVec Ideal S2048x512 .bf16) (W R : FVec Ideal S256x2048 .bf16) (b : FVec Ideal S256x1 .f32)
    (p : Fin 256) (q : Fin 512) : k0_pay6 (F := Ideal) x0 x1 W R b (ix2 p q) = bpre W R b x0 x1 p q := by
  unfold k0_pay6 k0_pay4 k0_pay5 bpre
  dsimp only
  rw [addf_apply, addf_apply, shapeCast_self, shapeCast_self, shapeCast_self, shapeCast_self, dense_at, dense_at, bias_at]

theorem pay7_at (x0 x1 : FVec Ideal S2048x512 .bf16) (W R : FVec Ideal S256x2048 .bf16) (b : FVec Ideal S256x1 .f32)
    (p : Fin 256) (q : Fin 512) : k0_pay7 (F := Ideal) x0 x1 W R b (ix2 p q) = bpre W R b x0 x1 p q := by
  unfold k0_pay7 k0_pay4 k0_pay5 bpre
  dsimp only
  rw [addf_apply, addf_apply, shapeCast_self, shapeCast_self, shapeCast_self, shapeCast_self, dense_at, dense_at, bias_at]

/-- The output gate's pre-activation block: its two products are formed first, then added with the bias. -/
theorem pay10_at (x0 x1 : FVec Ideal S2048x512 .bf16) (W R : FVec Ideal S256x2048 .bf16) (b : FVec Ideal S256x1 .f32)
    (p : Fin 256) (q : Fin 512) : k0_pay10 (F := Ideal) (k0_pay8 x0 W) (k0_pay9 x1 R) b (ix2 p q) = bpre W R b x0 x1 p q := by
  unfold k0_pay10 k0_pay8 k0_pay9 k0_pay4 k0_pay5 bpre
  dsimp only
  rw [addf_apply, addf_apply, shapeCast_self, shapeCast_self, shapeCast_self, shapeCast_self, dense_at, dense_at, bias_at]

/-- The cell input's pre-activation block. -/
theorem pay11_at (x0 x1 : FVec Ideal S2048x512 .bf16) (W R : FVec Ideal S256x2048 .bf16) (b : FVec Ideal S256x1 .f32)
    (p : Fin 256) (q : Fin 512) : k0_pay11 (F := Ideal) (k0_pay4 x0) (k0_pay5 x1) W R b (ix2 p q) = bpre W R b x0 x1 p q := by
  unfold k0_pay11 k0_pay4 k0_pay5 bpre
  dsimp only
  rw [addf_apply, addf_apply, shapeCast_self, shapeCast_self, shapeCast_self, shapeCast_self, dense_at, dense_at, bias_at]

end Cert.Slstm.Block

end
-- ==== Proof.BlockTail.lean ====
/-
  The pointwise part of the body on one block, read at an entry.  After the four pre-activations i, f, o, z the body is
  entry by entry: log σ(f) through its overflow-free spelling, the new stabiliser max (log σ(f) + m') i, the two gates
  exp (i − m) and exp (log σ(f) + m' − m), the cell φ·c' + ι·tanh z, the normaliser φ·n' + φ and the hidden value
  σ(o)·tanh (c / n).  Each value at an entry is the scalar function of Cell.lean of the operands at that entry.
-/
import proofs.«113979_j38199439131020_1_alg».proof.Proof.Gen.KernelIdeal.Skeleton
import proofs.«113979_j38199439131020_1_alg».proof.Proof.Cell

noncomputable section

namespace Cert.Slstm.Block

open Idealize.ShloMosaic Idealize.ShloMosaic.ValueIdx Cert.KernelIdeal Cert.KernelIdeal.Gen

/-- The body's log σ(f) at an entry, with its zero constants kept as one symbol `z`. -/
theorem pay12_raw (vF : FVec Ideal S256x512 .f32) (i : S256x512.Idx) (z : EReal)
    (hz : z = (Scalar.ofBits .f32 0x00000000#32 : Ideal .f32)) :
    k0_pay12 (F := Ideal) vF i = z - Scalar.select (Ideal.cmp .one (z - vF i - z) (z - vF i - z)) (z - vF i + z)
        (max (z - vF i) z + Ideal.log1p (Ideal.exp (z - max (z - vF i - z) (-(z - vF i - z))))) := by
  subst hz; rfl

/-- The body's log σ(f) at an entry is `log σ` of the forget pre-activation there. -/
theorem pay12_at (vF : FVec Ideal S256x512 .f32) (i : S256x512.Idx) : k0_pay12 (F := Ideal) vF i = logSig (vF i) :=
  (pay12_raw vF i 0 Ideal.ofBits_zero_f32.symm).trans (logSig_sub (vF i))

/-- The new stabiliser at an entry. -/
theorem pay13_at (vI vF : FVec Ideal S256x512 .f32) (mp : FVec Ideal S256x512 .f32) (i : S256x512.Idx) :
    k0_pay13 (F := Ideal) vI vF mp i = stab (vI i) (vF i) (mp i) := by
  show max (k0_pay12 (F := Ideal) vF i + mp i) (vI i) = _
  rw [pay12_at]; rfl

/-- The stabilised input gate at an entry. -/
theorem pay14_at (vI vF : FVec Ideal S256x512 .f32) (mp : FVec Ideal S256x512 .f32) (i : S256x512.Idx) :
    k0_pay14 (F := Ideal) vI vF mp i = gateIn (vI i) (vF i) (mp i) := by
  show Ideal.exp (vI i - k0_pay13 (F := Ideal) vI vF mp i) = _
  rw [pay13_at]; rfl

/-- The stabilised forget gate at an entry. -/
theorem pay15_at (vI vF : FVec Ideal S256x512 .f32) (mp : FVec Ideal S256x512 .f32) (i : S256x512.Idx) :
    k0_pay15 (F := Ideal) vI vF mp i = gateFg (vI i) (vF i) (mp i) := by
  show Ideal.exp (k0_pay12 (F := Ideal) vF i + mp i - k0_pay13 (F := Ideal) vI vF mp i) = _
  rw [pay12_at, pay13_at]; rfl

/-- The new cell entry from the gates' values. -/
theorem pay1_at (vZ vIn vFg : FVec Ideal S256x512 .f32) (cp : FVec Ideal S256x512 .f32) (i : S256x512.Idx) :
    k0_pay1 (F := Ideal) vZ vIn vFg cp i = vFg i * cp i + vIn i * Ideal.tanh (vZ i) := rfl

/-- The new normaliser entry from the forget gate's value. -/
theorem pay2_at (vFg : FVec Ideal S256x512 .f32) (np : FVec Ideal S256x512 .f32) (i : S256x512.Idx) :
    k0_pay2 (F := Ideal) vFg np i = vFg i * np i + vFg i := rfl

/-- The new hidden entry from the output pre-activation, the cell and the normaliser. -/
theorem pay3_at (vO vZ vIn vFg : FVec Ideal S256x512 .f32) (cp np : FVec Ideal S256x512 .f32) (i : S256x512.Idx) :
    k0_pay3 (F := Ideal) vO vZ vIn vFg cp np i
      = Ideal.logistic (vO i) * Ideal.tanh (Ideal.div (k0_pay1 (F := Ideal) vZ vIn vFg cp i) (k0_pay2 (F := Ideal) vFg np i)) := rfl

end Cert.Slstm.Block

end
-- ==== Proof.BlockOut.lean ====
/-
  What one grid point stores, entry by entry.  The body stores four whole blocks of 256 units by 512 columns: the new
  hidden values, cell values, normaliser values and stabiliser values.  With the block's operands — input columns x0,
  hidden-state columns x1, the four input-weight row blocks x2..x5, the four recurrent-weight row blocks x6..x9, the four
  bias columns x10..x13 and the previous cell, normaliser and stabiliser blocks x14, x15, x16 — entry (p, q) of each
  stored block is the cell function of Cell.lean at the block's four pre-activations (BlockGates.lean) and the three
  previous-state entries.
-/
import proofs.«113979_j38199439131020_1_alg».proof.Proof.Gen.KernelIdeal.Frame
import proofs.«113979_j38199439131020_1_alg».proof.Proof.BlockGates
import proofs.«113979_j38199439131020_1_alg».proof.Proof.BlockTail
import Idealize.ShloMosaic.Lib.Pipeline.Value

noncomputable section

namespace Cert.Slstm.Block

open Idealize.ShloMosaic Idealize.ShloMosaic.ValueIdx Cert.KernelIdeal Cert.KernelIdeal.Gen

/-- Every access of the body starts at the corner of its buffer. -/
theorem offs_zero : (![0, 0] : Fin 2 → Nat) = fun _ => 0 := funext fun a => by fin_cases a <;> rfl

/-- The stored stabiliser block at entry (p, q). -/
theorem out20_at (x0 x1 : FVec Ideal S2048x512 .bf16) (x2 x3 x4 x5 x6 x7 x8 x9 : FVec Ideal S256x2048 .bf16)
    (x10 x11 x12 x13 : FVec Ideal S256x1 .f32) (x14 x15 x16 : FVec Ideal S256x512 .f32) (p : Fin 256) (q : Fin 512) :
    out0_20 (F := Ideal) x0 x1 x2 x3 x4 x5 x6 x7 x8 x9 x10 x11 x12 x13 x14 x15 x16 (ix2 p q)
      = stab (bpre x2 x6 x10 x0 x1 p q) (bpre x3 x7 x11 x0 x1 p q) (x16 (ix2 p q)) := by
  unfold out0_20
  rw [View.canon_unit_zero offs_zero]
  simp only [View.ld_unit_zero (S := S2048x512) offs_zero, View.ld_unit_zero (S := S256x2048) offs_zero,
    View.ld_unit_zero (S := S256x1) offs_zero, View.ld_unit_zero (S := S256x512) offs_zero]
  rw [pay13_at, pay6_at, pay7_at]

/-- The stored normaliser block at entry (p, q). -/
theorem out19_at (x0 x1 : FVec Ideal S2048x512 .bf16) (x2 x3 x4 x5 x6 x7 x8 x9 : FVec Ideal S256x2048 .bf16)
    (x10 x11 x12 x13 : FVec Ideal S256x1 .f32) (x14 x15 x16 : FVec Ideal S256x512 .f32) (p : Fin 256) (q : Fin 512) :
    out0_19 (F := Ideal) x0 x1 x2 x3 x4 x5 x6 x7 x8 x9 x10 x11 x12 x13 x14 x15 x16 (ix2 p q)
      = cellN (bpre x2 x6 x10 x0 x1 p q) (bpre x3 x7 x11 x0 x1 p q) (x16 (ix2 p q)) (x15 (ix2 p q)) := by
  unfold out0_19
  rw [View.canon_unit_zero offs_zero]
  simp only [View.ld_unit_zero (S := S2048x512) offs_zero, View.ld_unit_zero (S := S256x2048) offs_zero,
    View.ld_unit_zero (S := S256x1) offs_zero, View.ld_unit_zero (S := S256x512) offs_zero]
  rw [pay2_at, pay15_at, pay6_at, pay7_at]
  rfl

/-- The stored cell block at entry (p, q). -/
theorem out18_at (x0 x1 : FVec Ideal S2048x512 .bf16) (x2 x3 x4 x5 x6 x7 x8 x9 : FVec Ideal S256x2048 .bf16)
    (x10 x11 x12 x13 : FVec Ideal S256x1 .f32) (x14 x15 x16 : FVec Ideal S256x512 .f32) (p : Fin 256) (q : Fin 512) :
    out0_18 (F := Ideal) x0 x1 x2 x3 x4 x5 x6 x7 x8 x9 x10 x11 x12 x13 x14 x15 x16 (ix2 p q)
      = cellC (bpre x2 x6 x10 x0 x1 p q) (bpre x3 x7 x11 x0 x1 p q) (bpre x5 x9 x13 x0 x1 p q) (x16 (ix2 p q))
          (x14 (ix2 p q)) := by
  unfold out0_18
  rw [View.canon_unit_zero offs_zero]
  simp only [View.ld_unit_zero (S := S2048x512) offs_zero, View.ld_unit_zero (S := S256x2048) offs_zero,
    View.ld_unit_zero (S := S256x1) offs_zero, View.ld_unit_zero (S := S256x512) offs_zero]
  rw [pay1_at, pay11_at, pay14_at, pay15_at, pay6_at, pay7_at]
  rfl

/-- The stored hidden block at entry (p, q). -/
theorem out17_at (x0 x1 : FVec Ideal S2048x512 .bf16) (x2 x3 x4 x5 x6 x7 x8 x9 : FVec Ideal S256x2048 .bf16)
    (x10 x11 x12 x13 : FVec Ideal S256x1 .f32) (x14 x15 x16 : FVec Ideal S256x512 .f32) (p : Fin 256) (q : Fin 512) :
    out0_17 (F := Ideal) x0 x1 x2 x3 x4 x5 x6 x7 x8 x9 x10 x11 x12 x13 x14 x15 x16 (ix2 p q)
      = cellH (bpre x2 x6 x10 x0 x1 p q) (bpre x3 x7 x11 x0 x1 p q) (bpre x4 x8 x12 x0 x1 p q)
          (bpre x5 x9 x13 x0 x1 p q) (x16 (ix2 p q)) (x14 (ix2 p q)) (x15 (ix2 p q)) := by
  unfold out0_17
  rw [View.canon_unit_zero offs_zero]
  simp only [View.ld_unit_zero (S := S2048x512) offs_zero, View.ld_unit_zero (S := S256x2048) offs_zero,
    View.ld_unit_zero (S := S256x1) offs_zero, View.ld_unit_zero (S := S256x512) offs_zero]
  rw [pay3_at, pay1_at, pay2_at, pay10_at, pay11_at, pay14_at, pay15_at, pay6_at, pay7_at]
  rfl

end Cert.Slstm.Block

end
-- ==== Proof.Windows.lean ====
/-
  What the region finds in each operand's array, and each operand's block at a grid point read at an entry.
  The grid is 8 by 8: point (a, b) holds hidden units 256a .. 256a+255 and batch columns 512b .. 512b+511.  Before the
  region the input, the hidden state and the eight weights are only re-typed (the identity on the extended reals) and each
  bias vector is laid out as a column.  The block of the input (and of the hidden state) at a point is all 2048 contracted
  units of the point's 512 columns; the block of a weight is the point's 256 rows with all 2048 contracted units; the
  block of a bias is the point's 256 entries; the blocks of the previous cell, normaliser and stabiliser are the point's
  256 by 512 entries.  So an entry of a block is an entry of the argument array at the block's offset plus the entry's
  coordinate inside the block.
-/
import proofs.«113979_j38199439131020_1_alg».proof.Proof.Gen.KernelIdeal.Frame
import proofs.«113979_j38199439131020_1_alg».proof.Proof.Cell
import proofs.«113979_j38199439131020_1_alg».proof.Proof.LibColumn
import Idealize.ShloMosaic.Lib.StableHlo.Run
import Idealize.ShloMosaic.Lib.Pipeline.Value

noncomputable section

namespace Cert.KernelIdeal.Cell

open Cert.KernelIdeal Cert.KernelIdeal.Gen Idealize.ShloMosaic Idealize.ShloMosaic.ValueIdx Idealize.SL.Sem

variable (m : (ℓ : Loc nD τ sig) → Buf (Elt Ideal) ℓ)

/-- The seventeen argument arrays as core `c`'s launch memory holds them. -/
def args (c : Dev nD) : Cert.Slstm.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

/-! ## The arrays the region finds -/

theorem V_main_v0 (c : Dev nD) : (V m c main_v0 : S2048x4096.Idx → EReal) = (args m c).x := by
  dsimp only [Gen.V, Gen.hostOps0]; after_results; rfl

theorem V_main_v1 (c : Dev nD) : (V m c main_v1 : S2048x4096.Idx → EReal) = (args m c).h := by
  dsimp only [Gen.V, Gen.hostOps0]; after_results; rfl

theorem V_main_v2 (c : Dev nD) : (V m c main_v2 : S2048x2048.Idx → EReal) = (args m c).wi := by
  dsimp only [Gen.V, Gen.hostOps0]; after_results; rfl

theorem V_main_v3 (c : Dev nD) : (V m c main_v3 : S2048x2048.Idx → EReal) = (args m c).wf := by
  dsimp only [Gen.V, Gen.hostOps0]; after_results; rfl

theorem V_main_v4 (c : Dev nD) : (V m c main_v4 : S2048x2048.Idx → EReal) = (args m c).wo := by
  dsimp only [Gen.V, Gen.hostOps0]; after_results; rfl

theorem V_main_v5 (c : Dev nD) : (V m c main_v5 : S2048x2048.Idx → EReal) = (args m c).wz := by
  dsimp only [Gen.V, Gen.hostOps0]; after_results; rfl

theorem V_main_v6 (c : Dev nD) : (V m c main_v6 : S2048x2048.Idx → EReal) = (args m c).ri := by
  dsimp only [Gen.V, Gen.hostOps0]; after_results; rfl

theorem V_main_v7 (c : Dev nD) : (V m c main_v7 : S2048x2048.Idx → EReal) = (args m c).rf := by
  dsimp only [Gen.V, Gen.hostOps0]; after_results; rfl

theorem V_main_v8 (c : Dev nD) : (V m c main_v8 : S2048x2048.Idx → EReal) = (args m c).ro := by
  dsimp only [Gen.V, Gen.hostOps0]; after_results; rfl

theorem V_main_v9 (c : Dev nD) : (V m c main_v9 : S2048x2048.Idx → EReal) = (args m c).rz := by
  dsimp only [Gen.V, Gen.hostOps0]; after_results; rfl

theorem V_main_v10 (c : Dev nD) :
    (V m c main_v10 : S2048x1.Idx → EReal) = shapeCast S2048x1 (args m c).bi shapeCasts_S2048_S2048x1 := by
  dsimp only [Gen.V, Gen.hostOps0]; after_results; rfl

theorem V_main_v11 (c : Dev nD) :
    (V m c main_v11 : S2048x1.Idx → EReal) = shapeCast S2048x1 (args m c).bf shapeCasts_S2048_S2048x1 := by
  dsimp only [Gen.V, Gen.hostOps0]; after_results; rfl

theorem V_main_v12 (c : Dev nD) :
    (V m c main_v12 : S2048x1.Idx → EReal) = shapeCast S2048x1 (args m c).bo shapeCasts_S2048_S2048x1 := by
  dsimp only [Gen.V, Gen.hostOps0]; after_results; rfl

theorem V_main_v13 (c : Dev nD) :
    (V m c main_v13 : S2048x1.Idx → EReal) = shapeCast S2048x1 (args m c).bz shapeCasts_S2048_S2048x1 := by
  dsimp only [Gen.V, Gen.hostOps0]; after_results; rfl

theorem V_main_arg2 (c : Dev nD) : (V m c main_arg2 : S2048x4096.Idx → EReal) = (args m c).cp :=
  Gen.V_main_arg2 m c

theorem V_main_arg3 (c : Dev nD) : (V m c main_arg3 : S2048x4096.Idx → EReal) = (args m c).np :=
  Gen.V_main_arg3 m c

theorem V_main_arg4 (c : Dev nD) : (V m c main_arg4 : S2048x4096.Idx → EReal) = (args m c).mp :=
  Gen.V_main_arg4 m c

/-! ## The index maps over the grid -/

/-- The output blocks' indices stay inside the 8 by 8 grid of blocks. -/
theorem idx_bound : ∀ t : Fin cfg0.N, win0_17.index t (0 : Fin 2) ≤ 7 ∧ win0_17.index t (1 : Fin 2) ≤ 7 :=
  (by decide +kernel : ∀ t : Fin grid0.N, _)

theorem idx0 : ∀ t : Fin cfg0.N, win0_0.index t (0 : Fin 2) = 0 ∧ win0_0.index t (1 : Fin 2) = win0_17.index t (1 : Fin 2) :=
  (by decide +kernel : ∀ t : Fin grid0.N, _)
theorem idx1 : ∀ t : Fin cfg0.N, win0_1.index t (0 : Fin 2) = 0 ∧ win0_1.index t (1 : Fin 2) = win0_17.index t (1 : Fin 2) :=
  (by decide +kernel : ∀ t : Fin grid0.N, _)
theorem idx2 : ∀ t : Fin cfg0.N, win0_2.index t (0 : Fin 2) = win0_17.index t (0 : Fin 2) ∧ win0_2.index t (1 : Fin 2) = 0 :=
  (by decide +kernel : ∀ t : Fin grid0.N, _)
theorem idx3 : ∀ t : Fin cfg0.N, win0_3.index t (0 : Fin 2) = win0_17.index t (0 : Fin 2) ∧ win0_3.index t (1 : Fin 2) = 0 :=
  (by decide +kernel : ∀ t : Fin grid0.N, _)
theorem idx4 : ∀ t : Fin cfg0.N, win0_4.index t (0 : Fin 2) = win0_17.index t (0 : Fin 2) ∧ win0_4.index t (1 : Fin 2) = 0 :=
  (by decide +kernel : ∀ t : Fin grid0.N, _)
theorem idx5 : ∀ t : Fin cfg0.N, win0_5.index t (0 : Fin 2) = win0_17.index t (0 : Fin 2) ∧ win0_5.index t (1 : Fin 2) = 0 :=
  (by decide +kernel : ∀ t : Fin grid0.N, _)
theorem idx6 : ∀ t : Fin cfg0.N, win0_6.index t (0 : Fin 2) = win0_17.index t (0 : Fin 2) ∧ win0_6.index t (1 : Fin 2) = 0 :=
  (by decide +kernel : ∀ t : Fin grid0.N, _)
theorem idx7 : ∀ t : Fin cfg0.N, win0_7.index t (0 : Fin 2) = win0_17.index t (0 : Fin 2) ∧ win0_7.index t (1 : Fin 2) = 0 :=
  (by decide +kernel : ∀ t : Fin grid0.N, _)
theorem idx8 : ∀ t : Fin cfg0.N, win0_8.index t (0 : Fin 2) = win0_17.index t (0 : Fin 2) ∧ win0_8.index t (1 : Fin 2) = 0 :=
  (by decide +kernel : ∀ t : Fin grid0.N, _)
theorem idx9 : ∀ t : Fin cfg0.N, win0_9.index t (0 : Fin 2) = win0_17.index t (0 : Fin 2) ∧ win0_9.index t (1 : Fin 2) = 0 :=
  (by decide +kernel : ∀ t : Fin grid0.N, _)
theorem idx10 : ∀ t : Fin cfg0.N, win0_10.index t (0 : Fin 2) = win0_17.index t (0 : Fin 2) ∧ win0_10.index t (1 : Fin 2) = 0 :=
  (by decide +kernel : ∀ t : Fin grid0.N, _)
theorem idx11 : ∀ t : Fin cfg0.N, win0_11.index t (0 : Fin 2) = win0_17.index t (0 : Fin 2) ∧ win0_11.index t (1 : Fin 2) = 0 :=
  (by decide +kernel : ∀ t : Fin grid0.N, _)
theorem idx12 : ∀ t : Fin cfg0.N, win0_12.index t (0 : Fin 2) = win0_17.index t (0 : Fin 2) ∧ win0_12.index t (1 : Fin 2) = 0 :=
  (by decide +kernel : ∀ t : Fin grid0.N, _)
theorem idx13 : ∀ t : Fin cfg0.N, win0_13.index t (0 : Fin 2) = win0_17.index t (0 : Fin 2) ∧ win0_13.index t (1 : Fin 2) = 0 :=
  (by decide +kernel : ∀ t : Fin grid0.N, _)
theorem idx14 : ∀ t : Fin cfg0.N, win0_14.index t (0 : Fin 2) = win0_17.index t (0 : Fin 2) ∧ win0_14.index t (1 : Fin 2) = win0_17.index t (1 : Fin 2) :=
  (by decide +kernel : ∀ t : Fin grid0.N, _)
theorem idx15 : ∀ t : Fin cfg0.N, win0_15.index t (0 : Fin 2) = win0_17.index t (0 : Fin 2) ∧ win0_15.index t (1 : Fin 2) = win0_17.index t (1 : Fin 2) :=
  (by decide +kernel : ∀ t : Fin grid0.N, _)
theorem idx16 : ∀ t : Fin cfg0.N, win0_16.index t (0 : Fin 2) = win0_17.index t (0 : Fin 2) ∧ win0_16.index t (1 : Fin 2) = win0_17.index t (1 : Fin 2) :=
  (by decide +kernel : ∀ t : Fin grid0.N, _)
theorem idx18 : ∀ t : Fin cfg0.N, win0_18.index t (0 : Fin 2) = win0_17.index t (0 : Fin 2) ∧ win0_18.index t (1 : Fin 2) = win0_17.index t (1 : Fin 2) :=
  (by decide +kernel : ∀ t : Fin grid0.N, _)
theorem idx19 : ∀ t : Fin cfg0.N, win0_19.index t (0 : Fin 2) = win0_17.index t (0 : Fin 2) ∧ win0_19.index t (1 : Fin 2) = win0_17.index t (1 : Fin 2) :=
  (by decide +kernel : ∀ t : Fin grid0.N, _)
theorem idx20 : ∀ t : Fin cfg0.N, win0_20.index t (0 : Fin 2) = win0_17.index t (0 : Fin 2) ∧ win0_20.index t (1 : Fin 2) = win0_17.index t (1 : Fin 2) :=
  (by decide +kernel : ∀ t : Fin grid0.N, _)

/-! ## A block's entry is the argument array's entry -/

/-- Column q of the point's block of `x` is column `s` of the array, `s` the block's first column plus q. -/
theorem read0 (c : Dev nD) (t : Fin cfg0.N) (k : Fin 2048) (q : Fin 512) (s : Fin 4096)
    (hs : s.val = win0_17.index t (1 : Fin 2) * 512 + q.val) :
    iblk m c 0 t (ix2 k q) = (args m c).x (ix2 k s) := by
  show V m c main_v0 (((cfg0.win 0).blk t).view.emb (ix2 k q)) = _
  rw [V_main_v0]
  refine congrArg _ (funext fun a => Fin.ext ?_)
  obtain ⟨e0, e1⟩ := idx0 t
  match a with
  | ⟨0, _⟩ => show win0_0.index t (0 : Fin 2) * 2048 + 1 * k.val = k.val; omega
  | ⟨1, _⟩ => show win0_0.index t (1 : Fin 2) * 512 + 1 * q.val = s.val; omega

/-- Column q of the point's block of `h` is column `s` of the array, `s` the block's first column plus q. -/
theorem read1 (c : Dev nD) (t : Fin cfg0.N) (k : Fin 2048) (q : Fin 512) (s : Fin 4096)
    (hs : s.val = win0_17.index t (1 : Fin 2) * 512 + q.val) :
    iblk m c 1 t (ix2 k q) = (args m c).h (ix2 k s) := by
  show V m c main_v1 (((cfg0.win 1).blk t).view.emb (ix2 k q)) = _
  rw [V_main_v1]
  refine congrArg _ (funext fun a => Fin.ext ?_)
  obtain ⟨e0, e1⟩ := idx1 t
  match a with
  | ⟨0, _⟩ => show win0_1.index t (0 : Fin 2) * 2048 + 1 * k.val = k.val; omega
  | ⟨1, _⟩ => show win0_1.index t (1 : Fin 2) * 512 + 1 * q.val = s.val; omega

/-- Row p of the point's block of `wi` is row `r` of the array, `r` the block's first row plus p. -/
theorem read2 (c : Dev nD) (t : Fin cfg0.N) (p : Fin 256) (k : Fin 2048) (r : Fin 2048)
    (hr : r.val = win0_17.index t (0 : Fin 2) * 256 + p.val) :
    iblk m c 2 t (ix2 p k) = (args m c).wi (ix2 r k) := by
  show V m c main_v2 (((cfg0.win 2).blk t).view.emb (ix2 p k)) = _
  rw [V_main_v2]
  refine congrArg _ (funext fun a => Fin.ext ?_)
  obtain ⟨e0, e1⟩ := idx2 t
  match a with
  | ⟨0, _⟩ => show win0_2.index t (0 : Fin 2) * 256 + 1 * p.val = r.val; omega
  | ⟨1, _⟩ => show win0_2.index t (1 : Fin 2) * 2048 + 1 * k.val = k.val; omega

/-- Row p of the point's block of `wf` is row `r` of the array, `r` the block's first row plus p. -/
theorem read3 (c : Dev nD) (t : Fin cfg0.N) (p : Fin 256) (k : Fin 2048) (r : Fin 2048)
    (hr : r.val = win0_17.index t (0 : Fin 2) * 256 + p.val) :
    iblk m c 3 t (ix2 p k) = (args m c).wf (ix2 r k) := by
  show V m c main_v3 (((cfg0.win 3).blk t).view.emb (ix2 p k)) = _
  rw [V_main_v3]
  refine congrArg _ (funext fun a => Fin.ext ?_)
  obtain ⟨e0, e1⟩ := idx3 t
  match a with
  | ⟨0, _⟩ => show win0_3.index t (0 : Fin 2) * 256 + 1 * p.val = r.val; omega
  | ⟨1, _⟩ => show win0_3.index t (1 : Fin 2) * 2048 + 1 * k.val = k.val; omega

/-- Row p of the point's block of `wo` is row `r` of the array, `r` the block's first row plus p. -/
theorem read4 (c : Dev nD) (t : Fin cfg0.N) (p : Fin 256) (k : Fin 2048) (r : Fin 2048)
    (hr : r.val = win0_17.index t (0 : Fin 2) * 256 + p.val) :
    iblk m c 4 t (ix2 p k) = (args m c).wo (ix2 r k) := by
  show V m c main_v4 (((cfg0.win 4).blk t).view.emb (ix2 p k)) = _
  rw [V_main_v4]
  refine congrArg _ (funext fun a => Fin.ext ?_)
  obtain ⟨e0, e1⟩ := idx4 t
  match a with
  | ⟨0, _⟩ => show win0_4.index t (0 : Fin 2) * 256 + 1 * p.val = r.val; omega
  | ⟨1, _⟩ => show win0_4.index t (1 : Fin 2) * 2048 + 1 * k.val = k.val; omega

/-- Row p of the point's block of `wz` is row `r` of the array, `r` the block's first row plus p. -/
theorem read5 (c : Dev nD) (t : Fin cfg0.N) (p : Fin 256) (k : Fin 2048) (r : Fin 2048)
    (hr : r.val = win0_17.index t (0 : Fin 2) * 256 + p.val) :
    iblk m c 5 t (ix2 p k) = (args m c).wz (ix2 r k) := by
  show V m c main_v5 (((cfg0.win 5).blk t).view.emb (ix2 p k)) = _
  rw [V_main_v5]
  refine congrArg _ (funext fun a => Fin.ext ?_)
  obtain ⟨e0, e1⟩ := idx5 t
  match a with
  | ⟨0, _⟩ => show win0_5.index t (0 : Fin 2) * 256 + 1 * p.val = r.val; omega
  | ⟨1, _⟩ => show win0_5.index t (1 : Fin 2) * 2048 + 1 * k.val = k.val; omega

/-- Row p of the point's block of `ri` is row `r` of the array, `r` the block's first row plus p. -/
theorem read6 (c : Dev nD) (t : Fin cfg0.N) (p : Fin 256) (k : Fin 2048) (r : Fin 2048)
    (hr : r.val = win0_17.index t (0 : Fin 2) * 256 + p.val) :
    iblk m c 6 t (ix2 p k) = (args m c).ri (ix2 r k) := by
  show V m c main_v6 (((cfg0.win 6).blk t).view.emb (ix2 p k)) = _
  rw [V_main_v6]
  refine congrArg _ (funext fun a => Fin.ext ?_)
  obtain ⟨e0, e1⟩ := idx6 t
  match a with
  | ⟨0, _⟩ => show win0_6.index t (0 : Fin 2) * 256 + 1 * p.val = r.val; omega
  | ⟨1, _⟩ => show win0_6.index t (1 : Fin 2) * 2048 + 1 * k.val = k.val; omega

/-- Row p of the point's block of `rf` is row `r` of the array, `r` the block's first row plus p. -/
theorem read7 (c : Dev nD) (t : Fin cfg0.N) (p : Fin 256) (k : Fin 2048) (r : Fin 2048)
    (hr : r.val = win0_17.index t (0 : Fin 2) * 256 + p.val) :
    iblk m c 7 t (ix2 p k) = (args m c).rf (ix2 r k) := by
  show V m c main_v7 (((cfg0.win 7).blk t).view.emb (ix2 p k)) = _
  rw [V_main_v7]
  refine congrArg _ (funext fun a => Fin.ext ?_)
  obtain ⟨e0, e1⟩ := idx7 t
  match a with
  | ⟨0, _⟩ => show win0_7.index t (0 : Fin 2) * 256 + 1 * p.val = r.val; omega
  | ⟨1, _⟩ => show win0_7.index t (1 : Fin 2) * 2048 + 1 * k.val = k.val; omega

/-- Row p of the point's block of `ro` is row `r` of the array, `r` the block's first row plus p. -/
theorem read8 (c : Dev nD) (t : Fin cfg0.N) (p : Fin 256) (k : Fin 2048) (r : Fin 2048)
    (hr : r.val = win0_17.index t (0 : Fin 2) * 256 + p.val) :
    iblk m c 8 t (ix2 p k) = (args m c).ro (ix2 r k) := by
  show V m c main_v8 (((cfg0.win 8).blk t).view.emb (ix2 p k)) = _
  rw [V_main_v8]
  refine congrArg _ (funext fun a => Fin.ext ?_)
  obtain ⟨e0, e1⟩ := idx8 t
  match a with
  | ⟨0, _⟩ => show win0_8.index t (0 : Fin 2) * 256 + 1 * p.val = r.val; omega
  | ⟨1, _⟩ => show win0_8.index t (1 : Fin 2) * 2048 + 1 * k.val = k.val; omega

/-- Row p of the point's block of `rz` is row `r` of the array, `r` the block's first row plus p. -/
theorem read9 (c : Dev nD) (t : Fin cfg0.N) (p : Fin 256) (k : Fin 2048) (r : Fin 2048)
    (hr : r.val = win0_17.index t (0 : Fin 2) * 256 + p.val) :
    iblk m c 9 t (ix2 p k) = (args m c).rz (ix2 r k) := by
  show V m c main_v9 (((cfg0.win 9).blk t).view.emb (ix2 p k)) = _
  rw [V_main_v9]
  refine congrArg _ (funext fun a => Fin.ext ?_)
  obtain ⟨e0, e1⟩ := idx9 t
  match a with
  | ⟨0, _⟩ => show win0_9.index t (0 : Fin 2) * 256 + 1 * p.val = r.val; omega
  | ⟨1, _⟩ => show win0_9.index t (1 : Fin 2) * 2048 + 1 * k.val = k.val; omega

/-- Entry p of the point's block of the column of `bi` is entry `r` of the vector. -/
theorem read10 (c : Dev nD) (t : Fin cfg0.N) (p : Fin 256) (r : Fin 2048)
    (hr : r.val = win0_17.index t (0 : Fin 2) * 256 + p.val) :
    iblk m c 10 t (ix2 p (0 : Fin 1)) = (args m c).bi (ix1 r) := by
  show V m c main_v10 (((cfg0.win 10).blk t).view.emb (ix2 p (0 : Fin 1))) = _
  rw [V_main_v10]
  have he : ((cfg0.win 10).blk t).view.emb (ix2 p (0 : Fin 1)) = (ix2 r (0 : Fin 1) : S2048x1.Idx) := by
    refine funext fun a => Fin.ext ?_
    obtain ⟨e0, e1⟩ := idx10 t
    match a with
    | ⟨0, _⟩ => show win0_10.index t (0 : Fin 2) * 256 + 1 * p.val = r.val; omega
    | ⟨1, _⟩ => show win0_10.index t (1 : Fin 2) * 1 + 1 * 0 = 0; omega
  rw [he]
  exact Cert.LibColumn.shapeCast_a_a1_apply _ _ r 0

/-- Entry p of the point's block of the column of `bf` is entry `r` of the vector. -/
theorem read11 (c : Dev nD) (t : Fin cfg0.N) (p : Fin 256) (r : Fin 2048)
    (hr : r.val = win0_17.index t (0 : Fin 2) * 256 + p.val) :
    iblk m c 11 t (ix2 p (0 : Fin 1)) = (args m c).bf (ix1 r) := by
  show V m c main_v11 (((cfg0.win 11).blk t).view.emb (ix2 p (0 : Fin 1))) = _
  rw [V_main_v11]
  have he : ((cfg0.win 11).blk t).view.emb (ix2 p (0 : Fin 1)) = (ix2 r (0 : Fin 1) : S2048x1.Idx) := by
    refine funext fun a => Fin.ext ?_
    obtain ⟨e0, e1⟩ := idx11 t
    match a with
    | ⟨0, _⟩ => show win0_11.index t (0 : Fin 2) * 256 + 1 * p.val = r.val; omega
    | ⟨1, _⟩ => show win0_11.index t (1 : Fin 2) * 1 + 1 * 0 = 0; omega
  rw [he]
  exact Cert.LibColumn.shapeCast_a_a1_apply _ _ r 0

/-- Entry p of the point's block of the column of `bo` is entry `r` of the vector. -/
theorem read12 (c : Dev nD) (t : Fin cfg0.N) (p : Fin 256) (r : Fin 2048)
    (hr : r.val = win0_17.index t (0 : Fin 2) * 256 + p.val) :
    iblk m c 12 t (ix2 p (0 : Fin 1)) = (args m c).bo (ix1 r) := by
  show V m c main_v12 (((cfg0.win 12).blk t).view.emb (ix2 p (0 : Fin 1))) = _
  rw [V_main_v12]
  have he : ((cfg0.win 12).blk t).view.emb (ix2 p (0 : Fin 1)) = (ix2 r (0 : Fin 1) : S2048x1.Idx) := by
    refine funext fun a => Fin.ext ?_
    obtain ⟨e0, e1⟩ := idx12 t
    match a with
    | ⟨0, _⟩ => show win0_12.index t (0 : Fin 2) * 256 + 1 * p.val = r.val; omega
    | ⟨1, _⟩ => show win0_12.index t (1 : Fin 2) * 1 + 1 * 0 = 0; omega
  rw [he]
  exact Cert.LibColumn.shapeCast_a_a1_apply _ _ r 0

/-- Entry p of the point's block of the column of `bz` is entry `r` of the vector. -/
theorem read13 (c : Dev nD) (t : Fin cfg0.N) (p : Fin 256) (r : Fin 2048)
    (hr : r.val = win0_17.index t (0 : Fin 2) * 256 + p.val) :
    iblk m c 13 t (ix2 p (0 : Fin 1)) = (args m c).bz (ix1 r) := by
  show V m c main_v13 (((cfg0.win 13).blk t).view.emb (ix2 p (0 : Fin 1))) = _
  rw [V_main_v13]
  have he : ((cfg0.win 13).blk t).view.emb (ix2 p (0 : Fin 1)) = (ix2 r (0 : Fin 1) : S2048x1.Idx) := by
    refine funext fun a => Fin.ext ?_
    obtain ⟨e0, e1⟩ := idx13 t
    match a with
    | ⟨0, _⟩ => show win0_13.index t (0 : Fin 2) * 256 + 1 * p.val = r.val; omega
    | ⟨1, _⟩ => show win0_13.index t (1 : Fin 2) * 1 + 1 * 0 = 0; omega
  rw [he]
  exact Cert.LibColumn.shapeCast_a_a1_apply _ _ r 0

/-- Entry (p, q) of the point's block of `cp` is entry (r, s) of the array. -/
theorem read14 (c : Dev nD) (t : Fin cfg0.N) (p : Fin 256) (q : Fin 512) (r : Fin 2048) (s : Fin 4096)
    (hr : r.val = win0_17.index t (0 : Fin 2) * 256 + p.val) (hs : s.val = win0_17.index t (1 : Fin 2) * 512 + q.val) :
    iblk m c 14 t (ix2 p q) = (args m c).cp (ix2 r s) := by
  show V m c main_arg2 (((cfg0.win 14).blk t).view.emb (ix2 p q)) = _
  rw [V_main_arg2]
  refine congrArg _ (funext fun a => Fin.ext ?_)
  obtain ⟨e0, e1⟩ := idx14 t
  match a with
  | ⟨0, _⟩ => show win0_14.index t (0 : Fin 2) * 256 + 1 * p.val = r.val; omega
  | ⟨1, _⟩ => show win0_14.index t (1 : Fin 2) * 512 + 1 * q.val = s.val; omega

/-- Entry (p, q) of the point's block of `np` is entry (r, s) of the array. -/
theorem read15 (c : Dev nD) (t : Fin cfg0.N) (p : Fin 256) (q : Fin 512) (r : Fin 2048) (s : Fin 4096)
    (hr : r.val = win0_17.index t (0 : Fin 2) * 256 + p.val) (hs : s.val = win0_17.index t (1 : Fin 2) * 512 + q.val) :
    iblk m c 15 t (ix2 p q) = (args m c).np (ix2 r s) := by
  show V m c main_arg3 (((cfg0.win 15).blk t).view.emb (ix2 p q)) = _
  rw [V_main_arg3]
  refine congrArg _ (funext fun a => Fin.ext ?_)
  obtain ⟨e0, e1⟩ := idx15 t
  match a with
  | ⟨0, _⟩ => show win0_15.index t (0 : Fin 2) * 256 + 1 * p.val = r.val; omega
  | ⟨1, _⟩ => show win0_15.index t (1 : Fin 2) * 512 + 1 * q.val = s.val; omega

/-- Entry (p, q) of the point's block of `mp` is entry (r, s) of the array. -/
theorem read16 (c : Dev nD) (t : Fin cfg0.N) (p : Fin 256) (q : Fin 512) (r : Fin 2048) (s : Fin 4096)
    (hr : r.val = win0_17.index t (0 : Fin 2) * 256 + p.val) (hs : s.val = win0_17.index t (1 : Fin 2) * 512 + q.val) :
    iblk m c 16 t (ix2 p q) = (args m c).mp (ix2 r s) := by
  show V m c main_arg4 (((cfg0.win 16).blk t).view.emb (ix2 p q)) = _
  rw [V_main_arg4]
  refine congrArg _ (funext fun a => Fin.ext ?_)
  obtain ⟨e0, e1⟩ := idx16 t
  match a with
  | ⟨0, _⟩ => show win0_16.index t (0 : Fin 2) * 256 + 1 * p.val = r.val; omega
  | ⟨1, _⟩ => show win0_16.index t (1 : Fin 2) * 512 + 1 * q.val = s.val; omega

end Cert.KernelIdeal.Cell

end
-- ==== Proof.KernelRun.lean ====
/-
  The kernel's four result arrays after the run.  At a grid point the four pre-activations of the point's blocks are the
  pre-activations of the argument arrays at the block's offset (the inner products run over all 2048 contracted units,
  which every block holds whole), and the previous-state blocks are the arrays' entries there; so what the point writes
  back is the block of the specification's array.  The 64 blocks of 256 by 512 tile the 2048 by 4096 array: entry (r, s)
  lies in the block of point (r / 256, s / 512).  Hence each result array ends as the specification's array.
-/
import proofs.«113979_j38199439131020_1_alg».proof.Proof.Gen.KernelIdeal.Frame
import proofs.«113979_j38199439131020_1_alg».proof.Proof.BlockOut
import proofs.«113979_j38199439131020_1_alg».proof.Proof.Windows

noncomputable section

namespace Cert.KernelIdeal.Cell

open Cert.KernelIdeal Cert.KernelIdeal.Gen Idealize.ShloMosaic Idealize.ShloMosaic.ValueIdx Idealize.ShloMosaic.TcCoe Idealize.SL.Sem
open Idealize.ShloMosaic.Pipeline (Dat)
open Cert.Slstm Cert.Slstm.Block

/-- A block's pre-activation is the arrays' pre-activation when the block's rows, bias entry and columns are the arrays'. -/
theorem pre_of_reads (W R : Wgt) (b : Bias) (x h : Act)
    (Wb Rb : FVec Ideal S256x2048 .bf16) (bb : FVec Ideal S256x1 .f32) (xb hb : FVec Ideal S2048x512 .bf16)
    (p : Fin 256) (q : Fin 512) (r : Fin 2048) (s : Fin 4096)
    (hW : ∀ k : Fin 2048, Wb (ix2 p k) = W (ix2 r k)) (hR : ∀ k : Fin 2048, Rb (ix2 p k) = R (ix2 r k))
    (hbias : bb (ix2 p (0 : Fin 1)) = b (ix1 r))
    (hx : ∀ k : Fin 2048, xb (ix2 k q) = x (ix2 k s)) (hh : ∀ k : Fin 2048, hb (ix2 k q) = h (ix2 k s)) :
    bpre Wb Rb bb xb hb p q = pre W R b x h r s := by
  unfold bpre pre
  rw [hbias]
  refine congrArg₂ (· + ·) (congrArg₂ (· + ·) ?_ ?_) rfl
  · exact Finset.sum_congr rfl fun k _ => by rw [hW k, hx k]
  · exact Finset.sum_congr rfl fun k _ => by rw [hR k, hh k]

variable (m : (ℓ : Loc nD τ sig) → Buf (Elt Ideal) ℓ) (ρ : Dev nD → PrngReg)

section point
variable (c : Dev nD) (t : Fin cfg0.N) (p : Fin 256) (q : Fin 512) (r : Fin 2048) (s : Fin 4096)

/-- The input gate's pre-activation of the point's blocks. -/
theorem preI_blk (hr : r.val = win0_17.index t (0 : Fin 2) * 256 + p.val)
    (hs : s.val = win0_17.index t (1 : Fin 2) * 512 + q.val) :
    bpre (iblk m c 2 t) (iblk m c 6 t) (iblk m c 10 t) (iblk m c 0 t) (iblk m c 1 t) p q = (args m c).preI r s :=
  pre_of_reads (args m c).wi (args m c).ri (args m c).bi (args m c).x (args m c).h
    (iblk m c 2 t) (iblk m c 6 t) (iblk m c 10 t) (iblk m c 0 t) (iblk m c 1 t) p q r s
    (fun k => read2 m c t p k r hr) (fun k => read6 m c t p k r hr) (read10 m c t p r hr)
    (fun k => read0 m c t k q s hs) (fun k => read1 m c t k q s hs)

/-- The forget gate's. -/
theorem preF_blk (hr : r.val = win0_17.index t (0 : Fin 2) * 256 + p.val)
    (hs : s.val = win0_17.index t (1 : Fin 2) * 512 + q.val) :
    bpre (iblk m c 3 t) (iblk m c 7 t) (iblk m c 11 t) (iblk m c 0 t) (iblk m c 1 t) p q = (args m c).preF r s :=
  pre_of_reads (args m c).wf (args m c).rf (args m c).bf (args m c).x (args m c).h
    (iblk m c 3 t) (iblk m c 7 t) (iblk m c 11 t) (iblk m c 0 t) (iblk m c 1 t) p q r s
    (fun k => read3 m c t p k r hr) (fun k => read7 m c t p k r hr) (read11 m c t p r hr)
    (fun k => read0 m c t k q s hs) (fun k => read1 m c t k q s hs)

/-- The output gate's. -/
theorem preO_blk (hr : r.val = win0_17.index t (0 : Fin 2) * 256 + p.val)
    (hs : s.val = win0_17.index t (1 : Fin 2) * 512 + q.val) :
    bpre (iblk m c 4 t) (iblk m c 8 t) (iblk m c 12 t) (iblk m c 0 t) (iblk m c 1 t) p q = (args m c).preO r s :=
  pre_of_reads (args m c).wo (args m c).ro (args m c).bo (args m c).x (args m c).h
    (iblk m c 4 t) (iblk m c 8 t) (iblk m c 12 t) (iblk m c 0 t) (iblk m c 1 t) p q r s
    (fun k => read4 m c t p k r hr) (fun k => read8 m c t p k r hr) (read12 m c t p r hr)
    (fun k => read0 m c t k q s hs) (fun k => read1 m c t k q s hs)

/-- The cell input's. -/
theorem preZ_blk (hr : r.val = win0_17.index t (0 : Fin 2) * 256 + p.val)
    (hs : s.val = win0_17.index t (1 : Fin 2) * 512 + q.val) :
    bpre (iblk m c 5 t) (iblk m c 9 t) (iblk m c 13 t) (iblk m c 0 t) (iblk m c 1 t) p q = (args m c).preZ r s :=
  pre_of_reads (args m c).wz (args m c).rz (args m c).bz (args m c).x (args m c).h
    (iblk m c 5 t) (iblk m c 9 t) (iblk m c 13 t) (iblk m c 0 t) (iblk m c 1 t) p q r s
    (fun k => read5 m c t p k r hr) (fun k => read9 m c t p k r hr) (read13 m c t p r hr)
    (fun k => read0 m c t k q s hs) (fun k => read1 m c t k q s hs)

end point

/-- Every block of the 8 by 8 grid of blocks is some point's. -/
theorem idx_onto : ∀ (a b : Fin 8), ∃ t : Fin cfg0.N, win0_17.index t = ![a.val, b.val] :=
  (by decide +kernel : ∀ (a b : Fin 8), ∃ t : Fin grid0.N, win0_17.index t = ![a.val, b.val])

/-! ## Result window 17 -/

/-- What point `t` writes back is block `t` of the specification's array. -/
theorem flushed17_eq (c : Dev nD) (t : Fin cfg0.N) :
    (dats m 0 c).flushed 17 t = ((cfg0.win 17).blk t).view.read (Elt Ideal) ((args m c).outH) := by
  show (cfg0.win 17).cut (grid0.coords t) ((dats m 0 c).after 17 t) = _
  rw [after0_17]
  funext j
  obtain ⟨p, q, rfl⟩ : ∃ (p : Fin 256) (q : Fin 512), j = ix2 p q := ⟨j 0, j 1, eq_ix2 j⟩
  obtain ⟨b0, b1⟩ := idx_bound t
  obtain ⟨f0, f1⟩ := idx_bound t
  obtain ⟨r, hr⟩ : ∃ r : Fin 2048, r.val = win0_17.index t (0 : Fin 2) * 256 + p.val :=
    ⟨⟨win0_17.index t (0 : Fin 2) * 256 + p.val, by have := p.isLt; omega⟩, rfl⟩
  obtain ⟨s, hs⟩ : ∃ s : Fin 4096, s.val = win0_17.index t (1 : Fin 2) * 512 + q.val :=
    ⟨⟨win0_17.index t (1 : Fin 2) * 512 + q.val, by have := q.isLt; omega⟩, rfl⟩
  have he : ((cfg0.win 17).blk t).view.emb (ix2 p q) = (ix2 r s : S2048x4096.Idx) := by
    refine funext fun a => Fin.ext ?_
    match a with
    | ⟨0, _⟩ => show win0_17.index t (0 : Fin 2) * 256 + 1 * p.val = r.val; omega
    | ⟨1, _⟩ => show win0_17.index t (1 : Fin 2) * 512 + 1 * q.val = s.val; omega
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = (args m c).outH (((cfg0.win 17).blk t).view.emb (ix2 p q))
  rw [he, Args.outH_ix]
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [preI_blk m c t p q r s hr hs, preF_blk m c t p q r s hr hs, preO_blk m c t p q r s hr hs, preZ_blk m c t p q r s hr hs, read16 m c t p q r s hr hs, read14 m c t p q r s hr hs, read15 m c t p q r s hr hs]

/-- An index of the array is in point `t`'s block iff each coordinate is in the block's range on its axis. -/
theorem mem_blk17 (t : Fin cfg0.N) (i : S2048x4096.Idx) :
    i ∈ ((cfg0.win 17).blk t).view.set ↔ ∀ a : Fin 2, win0_17.index t a * S256x512.size a ≤ (i a).val ∧ (i a).val < win0_17.index t a * S256x512.size a + S256x512.size a := by
  show i ∈ ((View.whole main_v14_0).slice (win0_17.rect t)).set ↔ _
  rw [View.set_slice_whole, Rect.mem_set_unit]
  exact Iff.rfl

/-- Every entry of the array lies in some point's block: entry (r, s) in that of point (r / 256, s / 512). -/
theorem cover17 (i : S2048x4096.Idx) :
    ∃ t : Fin cfg0.N, (cfg0.win 17).flush t = true ∧ i ∈ ((cfg0.win 17).blk t).view.set := by
  have hi0 : (i 0).val < 2048 := (i 0).isLt
  have hi1 : (i 1).val < 4096 := (i 1).isLt
  obtain ⟨t, ht⟩ := idx_onto ⟨(i 0).val / 256, by omega⟩ ⟨(i 1).val / 512, by omega⟩
  have q0 : win0_17.index t (0 : Fin 2) = (i 0).val / 256 := congrFun ht 0
  have q1 : win0_17.index t (1 : Fin 2) = (i 1).val / 512 := congrFun ht 1
  obtain ⟨f0, f1⟩ := idx_bound t
  refine ⟨t, flush0_17 t, ?_⟩
  rw [mem_blk17]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 512 ≤ (i 1).val ∧ (i 1).val < win0_17.index t (1 : Fin 2) * 512 + 512; omega

/-- The array after the run. -/
theorem final17 (c : Dev nD) : (dats m 0 c).arrAt 17 cfg0.N = (args m c).outH :=
  (dats m 0 c).arrAt_eq_of_cover 17 ((args m c).outH) (fun t _ => flushed17_eq m c t) cover17

/-! ## Result window 18 -/

/-- What point `t` writes back is block `t` of the specification's array. -/
theorem flushed18_eq (c : Dev nD) (t : Fin cfg0.N) :
    (dats m 0 c).flushed 18 t = ((cfg0.win 18).blk t).view.read (Elt Ideal) ((args m c).outC) := by
  show (cfg0.win 18).cut (grid0.coords t) ((dats m 0 c).after 18 t) = _
  rw [after0_18]
  funext j
  obtain ⟨p, q, rfl⟩ : ∃ (p : Fin 256) (q : Fin 512), j = ix2 p q := ⟨j 0, j 1, eq_ix2 j⟩
  obtain ⟨b0, b1⟩ := idx_bound t
  obtain ⟨f0, f1⟩ := idx18 t
  obtain ⟨r, hr⟩ : ∃ r : Fin 2048, r.val = win0_17.index t (0 : Fin 2) * 256 + p.val :=
    ⟨⟨win0_17.index t (0 : Fin 2) * 256 + p.val, by have := p.isLt; omega⟩, rfl⟩
  obtain ⟨s, hs⟩ : ∃ s : Fin 4096, s.val = win0_17.index t (1 : Fin 2) * 512 + q.val :=
    ⟨⟨win0_17.index t (1 : Fin 2) * 512 + q.val, by have := q.isLt; omega⟩, rfl⟩
  have he : ((cfg0.win 18).blk t).view.emb (ix2 p q) = (ix2 r s : S2048x4096.Idx) := by
    refine funext fun a => Fin.ext ?_
    match a with
    | ⟨0, _⟩ => show win0_18.index t (0 : Fin 2) * 256 + 1 * p.val = r.val; omega
    | ⟨1, _⟩ => show win0_18.index t (1 : Fin 2) * 512 + 1 * q.val = s.val; omega
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = (args m c).outC (((cfg0.win 18).blk t).view.emb (ix2 p q))
  rw [he, Args.outC_ix]
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [preI_blk m c t p q r s hr hs, preF_blk m c t p q r s hr hs, preZ_blk m c t p q r s hr hs, read16 m c t p q r s hr hs, read14 m c t p q r s hr hs]

/-- An index of the array is in point `t`'s block iff each coordinate is in the block's range on its axis. -/
theorem mem_blk18 (t : Fin cfg0.N) (i : S2048x4096.Idx) :
    i ∈ ((cfg0.win 18).blk t).view.set ↔ ∀ a : Fin 2, win0_18.index t a * S256x512.size a ≤ (i a).val ∧ (i a).val < win0_18.index t a * S256x512.size a + S256x512.size a := by
  show i ∈ ((View.whole main_v14_1).slice (win0_18.rect t)).set ↔ _
  rw [View.set_slice_whole, Rect.mem_set_unit]
  exact Iff.rfl

/-- Every entry of the array lies in some point's block: entry (r, s) in that of point (r / 256, s / 512). -/
theorem cover18 (i : S2048x4096.Idx) :
    ∃ t : Fin cfg0.N, (cfg0.win 18).flush t = true ∧ i ∈ ((cfg0.win 18).blk t).view.set := by
  have hi0 : (i 0).val < 2048 := (i 0).isLt
  have hi1 : (i 1).val < 4096 := (i 1).isLt
  obtain ⟨t, ht⟩ := idx_onto ⟨(i 0).val / 256, by omega⟩ ⟨(i 1).val / 512, by omega⟩
  have q0 : win0_17.index t (0 : Fin 2) = (i 0).val / 256 := congrFun ht 0
  have q1 : win0_17.index t (1 : Fin 2) = (i 1).val / 512 := congrFun ht 1
  obtain ⟨f0, f1⟩ := idx18 t
  refine ⟨t, flush0_18 t, ?_⟩
  rw [mem_blk18]
  intro a
  match a with
  | ⟨0, _⟩ => show win0_18.index t (0 : Fin 2) * 256 ≤ (i 0).val ∧ (i 0).val < win0_18.index t (0 : Fin 2) * 256 + 256; omega
  | ⟨1, _⟩ => show win0_18.index t (1 : Fin 2) * 512 ≤ (i 1).val ∧ (i 1).val < win0_18.index t (1 : Fin 2) * 512 + 512; omega

/-- The array after the run. -/
theorem final18 (c : Dev nD) : (dats m 0 c).arrAt 18 cfg0.N = (args m c).outC :=
  (dats m 0 c).arrAt_eq_of_cover 18 ((args m c).outC) (fun t _ => flushed18_eq m c t) cover18

/-! ## Result window 19 -/

/-- What point `t` writes back is block `t` of the specification's array. -/
theorem flushed19_eq (c : Dev nD) (t : Fin cfg0.N) :
    (dats m 0 c).flushed 19 t = ((cfg0.win 19).blk t).view.read (Elt Ideal) ((args m c).outN) := by
  show (cfg0.win 19).cut (grid0.coords t) ((dats m 0 c).after 19 t) = _
  rw [after0_19]
  funext j
  obtain ⟨p, q, rfl⟩ : ∃ (p : Fin 256) (q : Fin 512), j = ix2 p q := ⟨j 0, j 1, eq_ix2 j⟩
  obtain ⟨b0, b1⟩ := idx_bound t
  obtain ⟨f0, f1⟩ := idx19 t
  obtain ⟨r, hr⟩ : ∃ r : Fin 2048, r.val = win0_17.index t (0 : Fin 2) * 256 + p.val :=
    ⟨⟨win0_17.index t (0 : Fin 2) * 256 + p.val, by have := p.isLt; omega⟩, rfl⟩
  obtain ⟨s, hs⟩ : ∃ s : Fin 4096, s.val = win0_17.index t (1 : Fin 2) * 512 + q.val :=
    ⟨⟨win0_17.index t (1 : Fin 2) * 512 + q.val, by have := q.isLt; omega⟩, rfl⟩
  have he : ((cfg0.win 19).blk t).view.emb (ix2 p q) = (ix2 r s : S2048x4096.Idx) := by
    refine funext fun a => Fin.ext ?_
    match a with
    | ⟨0, _⟩ => show win0_19.index t (0 : Fin 2) * 256 + 1 * p.val = r.val; omega
    | ⟨1, _⟩ => show win0_19.index t (1 : Fin 2) * 512 + 1 * q.val = s.val; omega
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = (args m c).outN (((cfg0.win 19).blk t).view.emb (ix2 p q))
  rw [he, Args.outN_ix]
  refine (out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [preI_blk m c t p q r s hr hs, preF_blk m c t p q r s hr hs, read16 m c t p q r s hr hs, read15 m c t p q r s hr hs]

/-- An index of the array is in point `t`'s block iff each coordinate is in the block's range on its axis. -/
theorem mem_blk19 (t : Fin cfg0.N) (i : S2048x4096.Idx) :
    i ∈ ((cfg0.win 19).blk t).view.set ↔ ∀ a : Fin 2, win0_19.index t a * S256x512.size a ≤ (i a).val ∧ (i a).val < win0_19.index t a * S256x512.size a + S256x512.size a := by
  show i ∈ ((View.whole main_v14_2).slice (win0_19.rect t)).set ↔ _
  rw [View.set_slice_whole, Rect.mem_set_unit]
  exact Iff.rfl

/-- Every entry of the array lies in some point's block: entry (r, s) in that of point (r / 256, s / 512). -/
theorem cover19 (i : S2048x4096.Idx) :
    ∃ t : Fin cfg0.N, (cfg0.win 19).flush t = true ∧ i ∈ ((cfg0.win 19).blk t).view.set := by
  have hi0 : (i 0).val < 2048 := (i 0).isLt
  have hi1 : (i 1).val < 4096 := (i 1).isLt
  obtain ⟨t, ht⟩ := idx_onto ⟨(i 0).val / 256, by omega⟩ ⟨(i 1).val / 512, by omega⟩
  have q0 : win0_17.index t (0 : Fin 2) = (i 0).val / 256 := congrFun ht 0
  have q1 : win0_17.index t (1 : Fin 2) = (i 1).val / 512 := congrFun ht 1
  obtain ⟨f0, f1⟩ := idx19 t
  refine ⟨t, flush0_19 t, ?_⟩
  rw [mem_blk19]
  intro a
  match a with
  | ⟨0, _⟩ => show win0_19.index t (0 : Fin 2) * 256 ≤ (i 0).val ∧ (i 0).val < win0_19.index t (0 : Fin 2) * 256 + 256; omega
  | ⟨1, _⟩ => show win0_19.index t (1 : Fin 2) * 512 ≤ (i 1).val ∧ (i 1).val < win0_19.index t (1 : Fin 2) * 512 + 512; omega

/-- The array after the run. -/
theorem final19 (c : Dev nD) : (dats m 0 c).arrAt 19 cfg0.N = (args m c).outN :=
  (dats m 0 c).arrAt_eq_of_cover 19 ((args m c).outN) (fun t _ => flushed19_eq m c t) cover19

/-! ## Result window 20 -/

/-- What point `t` writes back is block `t` of the specification's array. -/
theorem flushed20_eq (c : Dev nD) (t : Fin cfg0.N) :
    (dats m 0 c).flushed 20 t = ((cfg0.win 20).blk t).view.read (Elt Ideal) ((args m c).outM) := by
  show (cfg0.win 20).cut (grid0.coords t) ((dats m 0 c).after 20 t) = _
  rw [after0_20]
  funext j
  obtain ⟨p, q, rfl⟩ : ∃ (p : Fin 256) (q : Fin 512), j = ix2 p q := ⟨j 0, j 1, eq_ix2 j⟩
  obtain ⟨b0, b1⟩ := idx_bound t
  obtain ⟨f0, f1⟩ := idx20 t
  obtain ⟨r, hr⟩ : ∃ r : Fin 2048, r.val = win0_17.index t (0 : Fin 2) * 256 + p.val :=
    ⟨⟨win0_17.index t (0 : Fin 2) * 256 + p.val, by have := p.isLt; omega⟩, rfl⟩
  obtain ⟨s, hs⟩ : ∃ s : Fin 4096, s.val = win0_17.index t (1 : Fin 2) * 512 + q.val :=
    ⟨⟨win0_17.index t (1 : Fin 2) * 512 + q.val, by have := q.isLt; omega⟩, rfl⟩
  have he : ((cfg0.win 20).blk t).view.emb (ix2 p q) = (ix2 r s : S2048x4096.Idx) := by
    refine funext fun a => Fin.ext ?_
    match a with
    | ⟨0, _⟩ => show win0_20.index t (0 : Fin 2) * 256 + 1 * p.val = r.val; omega
    | ⟨1, _⟩ => show win0_20.index t (1 : Fin 2) * 512 + 1 * q.val = s.val; omega
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = (args m c).outM (((cfg0.win 20).blk t).view.emb (ix2 p q))
  rw [he, Args.outM_ix]
  refine (out20_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [preI_blk m c t p q r s hr hs, preF_blk m c t p q r s hr hs, read16 m c t p q r s hr hs]

/-- An index of the array is in point `t`'s block iff each coordinate is in the block's range on its axis. -/
theorem mem_blk20 (t : Fin cfg0.N) (i : S2048x4096.Idx) :
    i ∈ ((cfg0.win 20).blk t).view.set ↔ ∀ a : Fin 2, win0_20.index t a * S256x512.size a ≤ (i a).val ∧ (i a).val < win0_20.index t a * S256x512.size a + S256x512.size a := by
  show i ∈ ((View.whole main_v14_3).slice (win0_20.rect t)).set ↔ _
  rw [View.set_slice_whole, Rect.mem_set_unit]
  exact Iff.rfl

/-- Every entry of the array lies in some point's block: entry (r, s) in that of point (r / 256, s / 512). -/
theorem cover20 (i : S2048x4096.Idx) :
    ∃ t : Fin cfg0.N, (cfg0.win 20).flush t = true ∧ i ∈ ((cfg0.win 20).blk t).view.set := by
  have hi0 : (i 0).val < 2048 := (i 0).isLt
  have hi1 : (i 1).val < 4096 := (i 1).isLt
  obtain ⟨t, ht⟩ := idx_onto ⟨(i 0).val / 256, by omega⟩ ⟨(i 1).val / 512, by omega⟩
  have q0 : win0_17.index t (0 : Fin 2) = (i 0).val / 256 := congrFun ht 0
  have q1 : win0_17.index t (1 : Fin 2) = (i 1).val / 512 := congrFun ht 1
  obtain ⟨f0, f1⟩ := idx20 t
  refine ⟨t, flush0_20 t, ?_⟩
  rw [mem_blk20]
  intro a
  match a with
  | ⟨0, _⟩ => show win0_20.index t (0 : Fin 2) * 256 ≤ (i 0).val ∧ (i 0).val < win0_20.index t (0 : Fin 2) * 256 + 256; omega
  | ⟨1, _⟩ => show win0_20.index t (1 : Fin 2) * 512 ≤ (i 1).val ∧ (i 1).val < win0_20.index t (1 : Fin 2) * 512 + 512; omega

/-- The array after the run. -/
theorem final20 (c : Dev nD) : (dats m 0 c).arrAt 20 cfg0.N = (args m c).outM :=
  (dats m 0 c).arrAt_eq_of_cover 20 ((args m c).outM) (fun t _ => flushed20_eq m c t) cover20

/-! ## The run -/

/-- Every weakly fair execution of the kernel's program terminates with the four result arrays at the specification's
    arrays of the launch arguments, and the seventeen arguments as launched. -/
theorem run : θ_run defs (onTc (τ := τ) (main (F := Ideal))) ⟨m, fun _ => 0, ρ⟩ fun r => ∀ c : Dev nD,
      r.2.mem ((c.tc : Thread nD τ).loc main_v14_0) = (args m c).outH
      ∧ r.2.mem ((c.tc : Thread nD τ).loc main_v14_1) = (args m c).outC
      ∧ r.2.mem ((c.tc : Thread nD τ).loc main_v14_2) = (args m c).outN
      ∧ r.2.mem ((c.tc : Thread nD τ).loc main_v14_3) = (args m c).outM
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 17).trans (final17 m c), ((h c).1 18).trans (final18 m c),
      ((h c).1 19).trans (final19 m c), ((h c).1 20).trans (final20 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 14).trans (((dats m 0 c).arrAt_in 14 rfl _).trans ((A_eq m c 14).trans (V_main_arg2 m c))),
      ((h c).1 15).trans (((dats m 0 c).arrAt_in 15 rfl _).trans ((A_eq m c 15).trans (V_main_arg3 m c))),
      ((h c).1 16).trans (((dats m 0 c).arrAt_in 16 rfl _).trans ((A_eq m c 16).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main m ρ)

end Cert.KernelIdeal.Cell

end
-- ==== Proof.RefRun.lean ====
/-
  The reference program's @main as the list of its sixty-four host operations, the log-sigmoid function and the
  softplus function it calls written out at the call site over the call's own buffers, and the run of that straight
  line: every weakly fair execution terminates with each buffer at the operations' fold over the launch contents.
-/
import proofs.«113979_j38199439131020_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order. The four gate pre-activations take six each (two products, their sum, the bias
    broadcast in two steps, the sum with it); the log-sigmoid of the forget gate's takes sixteen (a negation, the
    fourteen of softplus, a negation); the cell update takes the remaining twenty-four. -/
abbrev ops : List (HloOp τ sig (Elt F)) :=
  [ binary main_arg5 main_arg0 main_v0 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_arg9 main_arg1 main_v1 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_v0 main_v1 main_v2 (addf : (⟨S2048x4096, .f32⟩ : BufTy).Contents (Elt F) → (⟨S2048x4096, .f32⟩ : BufTy).Contents (Elt F) → (⟨S2048x4096, .f32⟩ : BufTy).Contents (Elt F)),
    unary main_arg13 main_v3 (broadcastInDim S2048x1 ![0] bcast_S2048_S2048x1_0 : (⟨S2048, .f32⟩ : BufTy).Contents (Elt F) → (⟨S2048x1, .f32⟩ : BufTy).Contents (Elt F)),
    unary main_v3 main_v4 (broadcastInDim S2048x4096 ![0, 1] bcast_S2048x1_S2048x4096_0_1 : (⟨S2048x1, .f32⟩ : BufTy).Contents (Elt F) → (⟨S2048x4096, .f32⟩ : BufTy).Contents (Elt F)),
    binary main_v2 main_v4 main_v5 (addf : (⟨S2048x4096, .f32⟩ : BufTy).Contents (Elt F) → (⟨S2048x4096, .f32⟩ : BufTy).Contents (Elt F) → (⟨S2048x4096, .f32⟩ : BufTy).Contents (Elt F)),
    binary main_arg6 main_arg0 main_v6 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_arg10 main_arg1 main_v7 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_v6 main_v7 main_v8 (addf : (⟨S2048x4096, .f32⟩ : BufTy).Contents (Elt F) → (⟨S2048x4096, .f32⟩ : BufTy).Contents (Elt F) → (⟨S2048x4096, .f32⟩ : BufTy).Contents (Elt F)),
    unary main_arg14 main_v9 (broadcastInDim S2048x1 ![0] bcast_S2048_S2048x1_0 : (⟨S2048, .f32⟩ : BufTy).Contents (Elt F) → (⟨S2048x1, .f32⟩ : BufTy).Contents (Elt F)),
    unary main_v9 main_v10 (broadcastInDim S2048x4096 ![0, 1] bcast_S2048x1_S2048x4096_0_1 : (⟨S2048x1, .f32⟩ : BufTy).Contents (Elt F) → (⟨S2048x4096, .f32⟩ : BufTy).Contents (Elt F)),
    binary main_v8 main_v10 main_v11 (addf : (⟨S2048x4096, .f32⟩ : BufTy).Contents (Elt F) → (⟨S2048x4096, .f32⟩ : BufTy).Contents (Elt F) → (⟨S2048x4096, .f32⟩ : BufTy).Contents (Elt F)),
    binary main_arg7 main_arg0 main_v12 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_arg11 main_arg1 main_v13 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_v12 main_v13 main_v14 (addf : (⟨S2048x4096, .f32⟩ : BufTy).Contents (Elt F) → (⟨S2048x4096, .f32⟩ : BufTy).Contents (Elt F) → (⟨S2048x4096, .f32⟩ : BufTy).Contents (Elt F)),
    unary main_arg15 main_v15 (broadcastInDim S2048x1 ![0] bcast_S2048_S2048x1_0 : (⟨S2048, .f32⟩ : BufTy).Contents (Elt F) → (⟨S2048x1, .f32⟩ : BufTy).Contents (Elt F)),
    unary main_v15 main_v16 (broadcastInDim S2048x4096 ![0, 1] bcast_S2048x1_S2048x4096_0_1 : (⟨S2048x1, .f32⟩ : BufTy).Contents (Elt F) → (⟨S2048x4096, .f32⟩ : BufTy).Contents (Elt F)),
    binary main_v14 main_v16 main_v17 (addf : (⟨S2048x4096, .f32⟩ : BufTy).Contents (Elt F) → (⟨S2048x4096, .f32⟩ : BufTy).Contents (Elt F) → (⟨S2048x4096, .f32⟩ : BufTy).Contents (Elt F)),
    binary main_arg8 main_arg0 main_v18 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_arg12 main_arg1 main_v19 ((fun l r => Host.dotGeneral dot_S2048x2048_S2048x4096_S2048x4096_1_0_0_1_n_n none l r) : (⟨S2048x2048, .f32⟩ : BufTy).Contents (Elt F) → (⟨S2048x4096, .f32⟩ : BufTy).Contents (Elt F) → (⟨S2048x4096, .f32⟩ : BufTy).Contents (Elt F)),
    binary main_v18 main_v19 main_v20 (addf : (⟨S2048x4096, .f32⟩ : BufTy).Contents (Elt F) → (⟨S2048x4096, .f32⟩ : BufTy).Contents (Elt F) → (⟨S2048x4096, .f32⟩ : BufTy).Contents (Elt F)),
    unary main_arg16 main_v21 (broadcastInDim S2048x1 ![0] bcast_S2048_S2048x1_0 : (⟨S2048, .f32⟩ : BufTy).Contents (Elt F) → (⟨S2048x1, .f32⟩ : BufTy).Contents (Elt F)),
    unary main_v21 main_v22 (broadcastInDim S2048x4096 ![0, 1] bcast_S2048x1_S2048x4096_0_1 : (⟨S2048x1, .f32⟩ : BufTy).Contents (Elt F) → (⟨S2048x4096, .f32⟩ : BufTy).Contents (Elt F)),
    binary main_v20 main_v22 main_v23 (addf : (⟨S2048x4096, .f32⟩ : BufTy).Contents (Elt F) → (⟨S2048x4096, .f32⟩ : BufTy).Contents (Elt F) → (⟨S2048x4096, .f32⟩ : BufTy).Contents (Elt F)),
    TRef.unary (.of main_v11) main_call0.v0 Host.negf,
    TRef.nullary main_call0.call0.cst (constant S_ .f32 0x00000000#32),
    TRef.unary main_call0.call0.cst main_call0.call0.v0 (broadcastInDim S2048x4096 ![] bcast_S_S2048x4096),
    TRef.binary main_call0.v0 main_call0.call0.v0 main_call0.call0.v1 maximumf,
    TRef.unary main_call0.call0.cst main_call0.call0.v2 (broadcastInDim S2048x4096 ![] bcast_S_S2048x4096),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S2048x4096 ![] bcast_S_S2048x4096),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v24 main_arg4 main_v25 (addf : (⟨S2048x4096, .f32⟩ : BufTy).Contents (Elt F) → (⟨S2048x4096, .f32⟩ : BufTy).Contents (Elt F) → (⟨S2048x4096, .f32⟩ : BufTy).Contents (Elt F)),
    binary main_v25 main_v5 main_v26 (maximumf : (⟨S2048x4096, .f32⟩ : BufTy).Contents (Elt F) → (⟨S2048x4096, .f32⟩ : BufTy).Contents (Elt F) → (⟨S2048x4096, .f32⟩ : BufTy).Contents (Elt F)),
    binary main_v5 main_v26 main_v27 (subf : (⟨S2048x4096, .f32⟩ : BufTy).Contents (Elt F) → (⟨S2048x4096, .f32⟩ : BufTy).Contents (Elt F) → (⟨S2048x4096, .f32⟩ : BufTy).Contents (Elt F)),
    unary main_v27 main_v28 (Host.exp : (⟨S2048x4096, .f32⟩ : BufTy).Contents (Elt F) → (⟨S2048x4096, .f32⟩ : BufTy).Contents (Elt F)),
    binary main_v24 main_arg4 main_v29 (addf : (⟨S2048x4096, .f32⟩ : BufTy).Contents (Elt F) → (⟨S2048x4096, .f32⟩ : BufTy).Contents (Elt F) → (⟨S2048x4096, .f32⟩ : BufTy).Contents (Elt F)),
    binary main_v29 main_v26 main_v30 (subf : (⟨S2048x4096, .f32⟩ : BufTy).Contents (Elt F) → (⟨S2048x4096, .f32⟩ : BufTy).Contents (Elt F) → (⟨S2048x4096, .f32⟩ : BufTy).Contents (Elt F)),
    unary main_v30 main_v31 (Host.exp : (⟨S2048x4096, .f32⟩ : BufTy).Contents (Elt F) → (⟨S2048x4096, .f32⟩ : BufTy).Contents (Elt F)),
    binary main_v31 main_arg2 main_v32 (mulf : (⟨S2048x4096, .f32⟩ : BufTy).Contents (Elt F) → (⟨S2048x4096, .f32⟩ : BufTy).Contents (Elt F) → (⟨S2048x4096, .f32⟩ : BufTy).Contents (Elt F)),
    unary main_v23 main_v33 (Host.tanh : (⟨S2048x4096, .f32⟩ : BufTy).Contents (Elt F) → (⟨S2048x4096, .f32⟩ : BufTy).Contents (Elt F)),
    binary main_v28 main_v33 main_v34 (mulf : (⟨S2048x4096, .f32⟩ : BufTy).Contents (Elt F) → (⟨S2048x4096, .f32⟩ : BufTy).Contents (Elt F) → (⟨S2048x4096, .f32⟩ : BufTy).Contents (Elt F)),
    binary main_v32 main_v34 main_v35 (addf : (⟨S2048x4096, .f32⟩ : BufTy).Contents (Elt F) → (⟨S2048x4096, .f32⟩ : BufTy).Contents (Elt F) → (⟨S2048x4096, .f32⟩ : BufTy).Contents (Elt F)),
    binary main_v31 main_arg3 main_v36 (mulf : (⟨S2048x4096, .f32⟩ : BufTy).Contents (Elt F) → (⟨S2048x4096, .f32⟩ : BufTy).Contents (Elt F) → (⟨S2048x4096, .f32⟩ : BufTy).Contents (Elt F)),
    binary main_v36 main_v31 main_v37 (addf : (⟨S2048x4096, .f32⟩ : BufTy).Contents (Elt F) → (⟨S2048x4096, .f32⟩ : BufTy).Contents (Elt F) → (⟨S2048x4096, .f32⟩ : BufTy).Contents (Elt F)),
    binary main_v35 main_v37 main_v38 (Host.divf : (⟨S2048x4096, .f32⟩ : BufTy).Contents (Elt F) → (⟨S2048x4096, .f32⟩ : BufTy).Contents (Elt F) → (⟨S2048x4096, .f32⟩ : BufTy).Contents (Elt F)),
    unary main_v17 main_v39 (Host.negf : (⟨S2048x4096, .f32⟩ : BufTy).Contents (Elt F) → (⟨S2048x4096, .f32⟩ : BufTy).Contents (Elt F)),
    unary main_v39 main_v40 (Host.exp : (⟨S2048x4096, .f32⟩ : BufTy).Contents (Elt F) → (⟨S2048x4096, .f32⟩ : BufTy).Contents (Elt F)),
    nullary main_cst (constant S_ .f32 0x3F800000#32),
    unary main_cst main_v41 (broadcastInDim S2048x4096 ![] bcast_S_S2048x4096 : (⟨S_, .f32⟩ : BufTy).Contents (Elt F) → (⟨S2048x4096, .f32⟩ : BufTy).Contents (Elt F)),
    binary main_v41 main_v40 main_v42 (addf : (⟨S2048x4096, .f32⟩ : BufTy).Contents (Elt F) → (⟨S2048x4096, .f32⟩ : BufTy).Contents (Elt F) → (⟨S2048x4096, .f32⟩ : BufTy).Contents (Elt F)),
    nullary main_cst_0 (constant S_ .f32 0x3F800000#32),
    unary main_cst_0 main_v43 (broadcastInDim S2048x4096 ![] bcast_S_S2048x4096 : (⟨S_, .f32⟩ : BufTy).Contents (Elt F) → (⟨S2048x4096, .f32⟩ : BufTy).Contents (Elt F)),
    binary main_v43 main_v42 main_v44 (Host.divf : (⟨S2048x4096, .f32⟩ : BufTy).Contents (Elt F) → (⟨S2048x4096, .f32⟩ : BufTy).Contents (Elt F) → (⟨S2048x4096, .f32⟩ : BufTy).Contents (Elt F)),
    unary main_v38 main_v45 (Host.tanh : (⟨S2048x4096, .f32⟩ : BufTy).Contents (Elt F) → (⟨S2048x4096, .f32⟩ : BufTy).Contents (Elt F)),
    binary main_v44 main_v45 main_v46 (mulf : (⟨S2048x4096, .f32⟩ : BufTy).Contents (Elt F) → (⟨S2048x4096, .f32⟩ : BufTy).Contents (Elt F) → (⟨S2048x4096, .f32⟩ : BufTy).Contents (Elt F)) ]

set_option maxRecDepth 8192 in
/-- @main is that straight line: with the two functions' definitions unfolded at their calls and the records at their
    fields, and sequencing computed through, both sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStage.lean ====
/-
  The reference program's arithmetic as functions of whole arrays, stage by stage, and each stage read at an entry.

  A gate's pre-activation array is two matrix products, their sum, and the bias broadcast along the batch columns;
  the log-sigmoid array is the negated softplus of the negated forget pre-activation; the cell update is pointwise.
  Read at an entry (r, c) each stage is the scalar function of the specification, so the four result arrays are the
  specification's new hidden, cell, normaliser and stabiliser arrays.
-/
import proofs.«113979_j38199439131020_1_alg».proof.Proof.Gen.ReferenceIdeal
import proofs.«113979_j38199439131020_1_alg».proof.Proof.Cell
import proofs.«113979_j38199439131020_1_alg».proof.Proof.LibDenseEntry
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Slstm

/-- A batch-shaped array of extended reals. -/
abbrev VA := FVec Ideal S2048x4096 .f32
/-- A square weight of extended reals. -/
abbrev VW := FVec Ideal S2048x2048 .f32
/-- A bias of extended reals. -/
abbrev VB := FVec Ideal S2048 .f32

/-- The array that is the constant word `w` everywhere. -/
def splat (w : BitVec 32) : VA := broadcastInDim S2048x4096 ![] bcast_S_S2048x4096 (constant (F := Ideal) S_ .f32 w)

theorem splat_ix (w : BitVec 32) (j : S2048x4096.Idx) : splat w j = Ideal.ofBits .f32 w := rfl
theorem splat_zero_ix (j : S2048x4096.Idx) : splat 0x00000000#32 j = 0 := Ideal.ofBits_zero_f32
theorem splat_one_ix (j : S2048x4096.Idx) : splat 0x3F800000#32 j = 1 := one_word

/-- A bias as a batch-shaped array: first a column, then the column along the batch axis. -/
def biasV (b : VB) : VA :=
  broadcastInDim S2048x4096 ![0, 1] bcast_S2048x1_S2048x4096_0_1 (broadcastInDim S2048x1 ![0] bcast_S2048_S2048x1_0 b)

/-- Entry (r, c) of the broadcast bias is the bias of unit r. -/
theorem biasV_ix (b : VB) (r : Fin 2048) (c : Fin 4096) : biasV b (ix2 r c) = b (ix1 r) := by
  unfold biasV
  refine (broadcastInDim_apply _ _ _ (ix2 r c) (ix2 r (0 : Fin 1)) ?_).trans ?_
  · intro a
    match a with
    | ⟨0, _⟩ => rfl
    | ⟨1, _⟩ => rfl
  · refine broadcastInDim_apply _ _ _ (ix2 r (0 : Fin 1)) (ix1 r) ?_
    intro a
    match a with
    | ⟨0, _⟩ => rfl

/-- A gate's pre-activation array: W·x + R·h + b. -/
def preV (W R : VW) (b : VB) (x h : VA) : VA :=
  addf (addf (Host.dotGeneral dot_S2048x2048_S2048x4096_S2048x4096_1_0_0_1_n_n none W x) (Host.dotGeneral dot_S2048x2048_S2048x4096_S2048x4096_1_0_0_1_n_n none R h)) (biasV b)

/-- Entry (r, c) of a pre-activation array is the specification's pre-activation. -/
theorem preV_ix (W R : VW) (b : VB) (x h : VA) (r : Fin 2048) (c : Fin 4096) :
    preV W R b x h (ix2 r c) = pre W R b x h r c := by
  unfold preV pre
  rw [addf_apply, addf_apply, biasV_ix]
  refine congrArg₂ (· + ·) (congrArg₂ (· + ·) ?_ ?_) rfl
  · exact Cert.LibDenseEntry.dotGeneral_plain_apply _ rfl rfl rfl rfl rfl rfl none .single W x r c
  · exact Cert.LibDenseEntry.dotGeneral_plain_apply _ rfl rfl rfl rfl rfl rfl none .single R h r c

/-- softplus of an array, as the reference spells it: the self-comparison guard, max(y, 0) + log(1 + e^{−|y|}). -/
def spV (y : VA) : VA :=
  select (cmpf .une (subf y (splat 0x00000000#32)) (subf y (splat 0x00000000#32))) (addf y (splat 0x00000000#32))
    (addf (maximumf y (splat 0x00000000#32))
      (Host.log1p (Host.exp (Host.negf (Host.absf (subf y (splat 0x00000000#32)))))))

/-- log σ of an array: the negated softplus of the negation. -/
def lsV (f : VA) : VA := Host.negf (spV (Host.negf f))

/-- Entry by entry the log-sigmoid array is the specification's log σ. -/
theorem lsV_ix (f : VA) (j : S2048x4096.Idx) : lsV f j = logSig (f j) :=
  (congrArg (fun z : EReal => -Scalar.select (Ideal.cmp .une (-f j - z) (-f j - z)) (-f j + z)
      (max (-f j) z + Ideal.log1p (Ideal.exp (-(max (-f j - z) (-(-f j - z))))))) Ideal.ofBits_zero_f32).trans
    (logSig_neg (f j))

/-- The new stabiliser array. -/
def mV (i f mp : VA) : VA := maximumf (addf (lsV f) mp) i
theorem mV_ix (i f mp : VA) (j : S2048x4096.Idx) : mV i f mp j = stab (i j) (f j) (mp j) := by
  unfold mV stab
  rw [maximumf_apply, addf_apply, lsV_ix]

/-- The stabilised input gate array. -/
def inV (i f mp : VA) : VA := Host.exp (subf i (mV i f mp))
theorem inV_ix (i f mp : VA) (j : S2048x4096.Idx) : inV i f mp j = gateIn (i j) (f j) (mp j) := by
  unfold gateIn
  rw [← mV_ix]
  rfl

/-- The stabilised forget gate array. -/
def fgV (i f mp : VA) : VA := Host.exp (subf (addf (lsV f) mp) (mV i f mp))
theorem fgV_ix (i f mp : VA) (j : S2048x4096.Idx) : fgV i f mp j = gateFg (i j) (f j) (mp j) := by
  unfold gateFg
  rw [← mV_ix, ← lsV_ix]
  rfl

/-- The new cell array. -/
def cV (i f z mp cp : VA) : VA := addf (mulf (fgV i f mp) cp) (mulf (inV i f mp) (Host.tanh z))
theorem cV_ix (i f z mp cp : VA) (j : S2048x4096.Idx) : cV i f z mp cp j = cellC (i j) (f j) (z j) (mp j) (cp j) := by
  unfold cellC
  rw [← fgV_ix, ← inV_ix]
  rfl

/-- The new normaliser array. -/
def nV (i f mp np : VA) : VA := addf (mulf (fgV i f mp) np) (fgV i f mp)
theorem nV_ix (i f mp np : VA) (j : S2048x4096.Idx) : nV i f mp np j = cellN (i j) (f j) (mp j) (np j) := by
  unfold cellN
  rw [← fgV_ix]
  rfl

/-- The new hidden array: 1 / (1 + e^{−o}) times tanh (c / n). -/
def hV (i f o z mp cp np : VA) : VA :=
  mulf (Host.divf (splat 0x3F800000#32) (addf (splat 0x3F800000#32) (Host.exp (Host.negf o))))
    (Host.tanh (Host.divf (cV i f z mp cp) (nV i f mp np)))
theorem hV_ix (i f o z mp cp np : VA) (j : S2048x4096.Idx) :
    hV i f o z mp cp np j = cellH (i j) (f j) (o j) (z j) (mp j) (cp j) (np j) := by
  unfold cellH
  rw [← cV_ix, ← nV_ix, ← logistic_spelt]
  exact congrArg (fun w : EReal => Ideal.div w (w + Ideal.exp (-(o j))) *
      Ideal.tanh (Ideal.div (cV i f z mp cp j) (nV i f mp np j))) one_word

/-! ## The four result arrays are the specification's -/

section Results

variable (a : Args)

/-- The four pre-activation arrays of the argument arrays. -/
def iV : VA := preV a.wi a.ri a.bi a.x a.h
def fV : VA := preV a.wf a.rf a.bf a.x a.h
def oV : VA := preV a.wo a.ro a.bo a.x a.h
def zV : VA := preV a.wz a.rz a.bz a.x a.h

theorem iV_ix (r : Fin 2048) (c : Fin 4096) : iV a (ix2 r c) = a.preI r c := preV_ix ..
theorem fV_ix (r : Fin 2048) (c : Fin 4096) : fV a (ix2 r c) = a.preF r c := preV_ix ..
theorem oV_ix (r : Fin 2048) (c : Fin 4096) : oV a (ix2 r c) = a.preO r c := preV_ix ..
theorem zV_ix (r : Fin 2048) (c : Fin 4096) : zV a (ix2 r c) = a.preZ r c := preV_ix ..

theorem outM_val : mV (iV a) (fV a) a.mp = a.outM := by
  funext j
  obtain ⟨r, q, rfl⟩ : ∃ (r : Fin 2048) (q : Fin 4096), j = ix2 r q := ⟨j 0, j 1, eq_ix2 j⟩
  rw [Args.outM_ix, mV_ix, iV_ix, fV_ix]

theorem outC_val : cV (iV a) (fV a) (zV a) a.mp a.cp = a.outC := by
  funext j
  obtain ⟨r, q, rfl⟩ : ∃ (r : Fin 2048) (q : Fin 4096), j = ix2 r q := ⟨j 0, j 1, eq_ix2 j⟩
  rw [Args.outC_ix, cV_ix, iV_ix, fV_ix, zV_ix]

theorem outN_val : nV (iV a) (fV a) a.mp a.np = a.outN := by
  funext j
  obtain ⟨r, q, rfl⟩ : ∃ (r : Fin 2048) (q : Fin 4096), j = ix2 r q := ⟨j 0, j 1, eq_ix2 j⟩
  rw [Args.outN_ix, nV_ix, iV_ix, fV_ix]

theorem outH_val : hV (iV a) (fV a) (oV a) (zV a) a.mp a.cp a.np = a.outH := by
  funext j
  obtain ⟨r, q, rfl⟩ : ∃ (r : Fin 2048) (q : Fin 4096), j = ix2 r q := ⟨j 0, j 1, eq_ix2 j⟩
  rw [Args.outH_ix, hV_ix, iV_ix, fV_ix, oV_ix, zV_ix]

end Results

end Cert.ReferenceIdeal.RefValue

end
-- ==== Proof.RefFoldH.lean ====
/-
  The operations' fold over any contents, followed from the new hidden array's buffer back to the argument buffers: each operation's
  result at its own buffer is its function of its operands' contents, and at any other buffer what was there.
-/
import proofs.«113979_j38199439131020_1_alg».proof.Proof.RefRun
import proofs.«113979_j38199439131020_1_alg».proof.Proof.RefStage

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Slstm

variable (V : Valuation τ sig (Elt Ideal))

set_option maxHeartbeats 1600000 in
/-- The new hidden array's buffer holds the staged term of the arguments' contents. -/
theorem v46_eq : after ops V (main_v46 : DevRef τ sig)
    = hV (preV (V (main_arg5 : DevRef τ sig)) (V (main_arg9 : DevRef τ sig)) (V (main_arg13 : DevRef τ sig)) (V (main_arg0 : DevRef τ sig)) (V (main_arg1 : DevRef τ sig))) (preV (V (main_arg6 : DevRef τ sig)) (V (main_arg10 : DevRef τ sig)) (V (main_arg14 : DevRef τ sig)) (V (main_arg0 : DevRef τ sig)) (V (main_arg1 : DevRef τ sig))) (preV (V (main_arg7 : DevRef τ sig)) (V (main_arg11 : DevRef τ sig)) (V (main_arg15 : DevRef τ sig)) (V (main_arg0 : DevRef τ sig)) (V (main_arg1 : DevRef τ sig))) (preV (V (main_arg8 : DevRef τ sig)) (V (main_arg12 : DevRef τ sig)) (V (main_arg16 : DevRef τ sig)) (V (main_arg0 : DevRef τ sig)) (V (main_arg1 : DevRef τ sig))) (V (main_arg4 : DevRef τ sig)) (V (main_arg2 : DevRef τ sig)) (V (main_arg3 : DevRef τ sig)) := by
  after_results_simp
  rfl

end Cert.ReferenceIdeal.RefValue

end
-- ==== Proof.RefFoldC.lean ====
/-
  The operations' fold over any contents, followed from the new cell array's buffer back to the argument buffers: each operation's
  result at its own buffer is its function of its operands' contents, and at any other buffer what was there.
-/
import proofs.«113979_j38199439131020_1_alg».proof.Proof.RefRun
import proofs.«113979_j38199439131020_1_alg».proof.Proof.RefStage

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Slstm

variable (V : Valuation τ sig (Elt Ideal))

set_option maxHeartbeats 1600000 in
/-- The new cell array's buffer holds the staged term of the arguments' contents. -/
theorem v35_eq : after ops V (main_v35 : DevRef τ sig)
    = cV (preV (V (main_arg5 : DevRef τ sig)) (V (main_arg9 : DevRef τ sig)) (V (main_arg13 : DevRef τ sig)) (V (main_arg0 : DevRef τ sig)) (V (main_arg1 : DevRef τ sig))) (preV (V (main_arg6 : DevRef τ sig)) (V (main_arg10 : DevRef τ sig)) (V (main_arg14 : DevRef τ sig)) (V (main_arg0 : DevRef τ sig)) (V (main_arg1 : DevRef τ sig))) (preV (V (main_arg8 : DevRef τ sig)) (V (main_arg12 : DevRef τ sig)) (V (main_arg16 : DevRef τ sig)) (V (main_arg0 : DevRef τ sig)) (V (main_arg1 : DevRef τ sig))) (V (main_arg4 : DevRef τ sig)) (V (main_arg2 : DevRef τ sig)) := by
  after_results_simp
  rfl

end Cert.ReferenceIdeal.RefValue

end
-- ==== Proof.RefFoldN.lean ====
/-
  The operations' fold over any contents, followed from the new normaliser array's buffer back to the argument buffers: each operation's
  result at its own buffer is its function of its operands' contents, and at any other buffer what was there.
-/
import proofs.«113979_j38199439131020_1_alg».proof.Proof.RefRun
import proofs.«113979_j38199439131020_1_alg».proof.Proof.RefStage

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Slstm

variable (V : Valuation τ sig (Elt Ideal))

set_option maxHeartbeats 1600000 in
/-- The new normaliser array's buffer holds the staged term of the arguments' contents. -/
theorem v37_eq : after ops V (main_v37 : DevRef τ sig)
    = nV (preV (V (main_arg5 : DevRef τ sig)) (V (main_arg9 : DevRef τ sig)) (V (main_arg13 : DevRef τ sig)) (V (main_arg0 : DevRef τ sig)) (V (main_arg1 : DevRef τ sig))) (preV (V (main_arg6 : DevRef τ sig)) (V (main_arg10 : DevRef τ sig)) (V (main_arg14 : DevRef τ sig)) (V (main_arg0 : DevRef τ sig)) (V (main_arg1 : DevRef τ sig))) (V (main_arg4 : DevRef τ sig)) (V (main_arg3 : DevRef τ sig)) := by
  after_results_simp
  rfl

end Cert.ReferenceIdeal.RefValue

end
-- ==== Proof.RefFoldM.lean ====
/-
  The operations' fold over any contents, followed from the new stabiliser array's buffer, and from each argument buffer, back to the argument buffers: each operation's
  result at its own buffer is its function of its operands' contents, and at any other buffer what was there.
-/
import proofs.«113979_j38199439131020_1_alg».proof.Proof.RefRun
import proofs.«113979_j38199439131020_1_alg».proof.Proof.RefStage

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Slstm

variable (V : Valuation τ sig (Elt Ideal))

set_option maxHeartbeats 1600000 in
/-- The new stabiliser array's buffer holds the staged term of the arguments' contents. -/
theorem v26_eq : after ops V (main_v26 : DevRef τ sig)
    = mV (preV (V (main_arg5 : DevRef τ sig)) (V (main_arg9 : DevRef τ sig)) (V (main_arg13 : DevRef τ sig)) (V (main_arg0 : DevRef τ sig)) (V (main_arg1 : DevRef τ sig))) (preV (V (main_arg6 : DevRef τ sig)) (V (main_arg10 : DevRef τ sig)) (V (main_arg14 : DevRef τ sig)) (V (main_arg0 : DevRef τ sig)) (V (main_arg1 : DevRef τ sig))) (V (main_arg4 : DevRef τ sig)) := by
  after_results_simp
  rfl

/-! No operation writes an argument buffer. -/
theorem arg0_eq : after ops V (main_arg0 : DevRef τ sig) = V (main_arg0 : DevRef τ sig) := by after_results_simp
theorem arg1_eq : after ops V (main_arg1 : DevRef τ sig) = V (main_arg1 : DevRef τ sig) := by after_results_simp
theorem arg2_eq : after ops V (main_arg2 : DevRef τ sig) = V (main_arg2 : DevRef τ sig) := by after_results_simp
theorem arg3_eq : after ops V (main_arg3 : DevRef τ sig) = V (main_arg3 : DevRef τ sig) := by after_results_simp
theorem arg4_eq : after ops V (main_arg4 : DevRef τ sig) = V (main_arg4 : DevRef τ sig) := by after_results_simp
theorem arg5_eq : after ops V (main_arg5 : DevRef τ sig) = V (main_arg5 : DevRef τ sig) := by after_results_simp
theorem arg6_eq : after ops V (main_arg6 : DevRef τ sig) = V (main_arg6 : DevRef τ sig) := by after_results_simp
theorem arg7_eq : after ops V (main_arg7 : DevRef τ sig) = V (main_arg7 : DevRef τ sig) := by after_results_simp
theorem arg8_eq : after ops V (main_arg8 : DevRef τ sig) = V (main_arg8 : DevRef τ sig) := by after_results_simp
theorem arg9_eq : after ops V (main_arg9 : DevRef τ sig) = V (main_arg9 : DevRef τ sig) := by after_results_simp
theorem arg10_eq : after ops V (main_arg10 : DevRef τ sig) = V (main_arg10 : DevRef τ sig) := by after_results_simp
theorem arg11_eq : after ops V (main_arg11 : DevRef τ sig) = V (main_arg11 : DevRef τ sig) := by after_results_simp
theorem arg12_eq : after ops V (main_arg12 : DevRef τ sig) = V (main_arg12 : DevRef τ sig) := by after_results_simp
theorem arg13_eq : after ops V (main_arg13 : DevRef τ sig) = V (main_arg13 : DevRef τ sig) := by after_results_simp
theorem arg14_eq : after ops V (main_arg14 : DevRef τ sig) = V (main_arg14 : DevRef τ sig) := by after_results_simp
theorem arg15_eq : after ops V (main_arg15 : DevRef τ sig) = V (main_arg15 : DevRef τ sig) := by after_results_simp
theorem arg16_eq : after ops V (main_arg16 : DevRef τ sig) = V (main_arg16 : DevRef τ sig) := by after_results_simp

end Cert.ReferenceIdeal.RefValue

end
-- ==== Proof.RefRead.lean ====
/-
  The reference program's run, read back: every weakly fair execution of @main terminates with the four result
  buffers at the specification's new hidden, cell, normaliser and stabiliser arrays of the seventeen argument arrays,
  and the argument buffers unchanged.

  Each result buffer after the run holds the operations' fold over the launch contents; the fold, followed from the
  result buffer back to the argument buffers, is the staged array term of the arguments' contents, and that term is
  the specification's array entry by entry.
-/
import proofs.«113979_j38199439131020_1_alg».proof.Proof.RefRun
import proofs.«113979_j38199439131020_1_alg».proof.Proof.RefStage
import proofs.«113979_j38199439131020_1_alg».proof.Proof.RefFoldH
import proofs.«113979_j38199439131020_1_alg».proof.Proof.RefFoldC
import proofs.«113979_j38199439131020_1_alg».proof.Proof.RefFoldN
import proofs.«113979_j38199439131020_1_alg».proof.Proof.RefFoldM

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Slstm

/-! ## The run -/

/-- The seventeen argument arrays as core c's launch memory holds them. -/
def args (m : (ℓ : Loc nD τ sig) → Buf (Elt Ideal) ℓ) (c : Dev nD) : Cert.Slstm.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16)⟩

/-- From any memory with zero counters: every weakly fair execution of @main terminates with the four result buffers
    at the specification's arrays of the argument arrays at launch, and every argument buffer as it was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = (args m c).outH
      ∧ r.2.mem ((c.tc : Thread nD τ).loc main_v35) = (args m c).outC
      ∧ r.2.mem ((c.tc : Thread nD τ).loc main_v37) = (args m c).outN
      ∧ r.2.mem ((c.tc : Thread nD τ).loc main_v26) = (args m c).outM
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c main_v46).trans ((v46_eq (launchContents m c)).trans (outH_val (args m c))),
     (h c main_v35).trans ((v35_eq (launchContents m c)).trans (outC_val (args m c))),
     (h c main_v37).trans ((v37_eq (launchContents m c)).trans (outN_val (args m c))),
     (h c main_v26).trans ((v26_eq (launchContents m c)).trans (outM_val (args m c))),
     (h c main_arg0).trans (arg0_eq (launchContents m c)),
     (h c main_arg1).trans (arg1_eq (launchContents m c)),
     (h c main_arg2).trans (arg2_eq (launchContents m c)),
     (h c main_arg3).trans (arg3_eq (launchContents m c)),
     (h c main_arg4).trans (arg4_eq (launchContents m c)),
     (h c main_arg5).trans (arg5_eq (launchContents m c)),
     (h c main_arg6).trans (arg6_eq (launchContents m c)),
     (h c main_arg7).trans (arg7_eq (launchContents m c)),
     (h c main_arg8).trans (arg8_eq (launchContents m c)),
     (h c main_arg9).trans (arg9_eq (launchContents m c)),
     (h c main_arg10).trans (arg10_eq (launchContents m c)),
     (h c main_arg11).trans (arg11_eq (launchContents m c)),
     (h c main_arg12).trans (arg12_eq (launchContents m c)),
     (h c main_arg13).trans (arg13_eq (launchContents m c)),
     (h c main_arg14).trans (arg14_eq (launchContents m c)),
     (h c main_arg15).trans (arg15_eq (launchContents m c)),
     (h c main_arg16).trans (arg16_eq (launchContents m c))⟩)
    (run_main m ρ)

end Cert.ReferenceIdeal.RefValue

end
-- ==== Proof.lean ====
/-
  One step of an exponentially gated recurrent cell (four gates, each a weight times the input plus a recurrent weight
  times the previous hidden state plus a bias; a stabiliser m = max (log σ(f) + m') i; gates exp (i − m) and
  exp (log σ(f) + m' − m); cell c = φ·c' + ι·tanh z; normaliser n = φ·n' + φ; hidden value σ(o)·tanh (c / n)), computed
  by a kernel over an 8 by 8 grid of blocks of 256 hidden units by 512 batch columns, against the same step written over
  whole arrays.

  Over the extended reals the two programs compute ONE function of the seventeen argument arrays, entry by entry
  (Proof/Cell.lean).  Each gate's inner products run over all 2048 contracted units in both programs — a block holds its
  rows and its columns whole — so no sum is regrouped; a change of float format is the identity; and the three places
  where the two texts differ are equalities on every extended real: a negation written 0 − x, a "not equal to itself"
  guard that is never taken because nothing is unordered, and the logistic function against 1 / (1 + e^{−o}), which is its
  definition.  No step needs the entries to be finite, so the precondition is not opened.

  The kernel's arrays after its run: Proof/KernelRun.lean (what a grid point stores, BlockGates / BlockTail / BlockOut;
  what each operand's block holds, Windows; the blocks tile the arrays).  The reference's: Proof/RefRead.lean over its
  run in Proof/RefRun.lean.  The ideal pass rewrote nothing, so the idealised kernel is the kernel's own text.
-/
import proofs.«113979_j38199439131020_1_alg».proof.Defs
import proofs.«113979_j38199439131020_1_alg».proof.Proof.Gen.Kernel
import proofs.«113979_j38199439131020_1_alg».proof.Proof.Gen.Kernel.Frame
import proofs.«113979_j38199439131020_1_alg».proof.Proof.Gen.KernelIdeal
import proofs.«113979_j38199439131020_1_alg».proof.Proof.Gen.KernelIdeal.Frame
import proofs.«113979_j38199439131020_1_alg».proof.Proof.Gen.ReferenceIdeal
import proofs.«113979_j38199439131020_1_alg».proof.Proof.Gen.Pre_finite_inputs
import proofs.«113979_j38199439131020_1_alg».proof.Proof.KernelRun
import proofs.«113979_j38199439131020_1_alg».proof.Proof.RefRead
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run, with the four results dropped. -/
theorem frame_ri : Cert.frame_ReferenceIdeal := fun m ρ _ =>
  (θ_run Cert.ReferenceIdeal.defs _ _).mono (fun _ h c => (h c).2.2.2.2) (Cert.ReferenceIdeal.RefValue.run m ρ)

/-- Nothing was rewritten between the kernel and its reading over the extended reals. -/
theorem preserves : Cert.preserves_Kernel_KernelIdeal := trivial

/-- From memories that agree on the seventeen arguments the two programs end with the same hidden, cell, normaliser and
    stabiliser arrays: both are the specification's arrays of those arguments. -/
theorem algebraic : Cert.algebraic_KernelIdeal_ReferenceIdeal := by
  intro m ρ m' ρ' _ hagree
  refine ⟨fun c => (Cert.KernelIdeal.Cell.args m c).outH, fun c => (Cert.KernelIdeal.Cell.args m c).outH,
    fun c => (Cert.KernelIdeal.Cell.args m c).outC, fun c => (Cert.KernelIdeal.Cell.args m c).outN,
    fun c => (Cert.KernelIdeal.Cell.args m c).outM, ?_, ?_⟩
  · exact (θ_run Cert.KernelIdeal.defs _ _).mono
      (fun _ h c => ⟨(h c).1, (h c).1, (h c).2.1, (h c).2.2.1, (h c).2.2.2.1, (h c).2.2.2.2⟩)
      (Cert.KernelIdeal.Cell.run m ρ)
  · refine (θ_run Cert.ReferenceIdeal.defs _ _).mono (fun _ h c => ?_) (Cert.ReferenceIdeal.RefValue.run m' ρ')
    have ea : Cert.ReferenceIdeal.RefValue.args m' c = Cert.KernelIdeal.Cell.args m c := by
      obtain ⟨a0, a1, a2, a3, a4, a5, a6, a7, a8, a9, a10, a11, a12, a13, a14, a15, a16⟩ := hagree c
      unfold Cert.ReferenceIdeal.RefValue.args Cert.KernelIdeal.Cell.args
      rw [a0, a1, a2, a3, a4, a5, a6, a7, a8, a9, a10, a11, a12, a13, a14, a15, a16]
    obtain ⟨h0, h1, h2, h3, hrest⟩ := h c
    exact ⟨h0.trans (congrArg Cert.Slstm.Args.outH ea), h0.trans (congrArg Cert.Slstm.Args.outH ea),
      h1.trans (congrArg Cert.Slstm.Args.outC ea), h2.trans (congrArg Cert.Slstm.Args.outN ea),
      h3.trans (congrArg Cert.Slstm.Args.outM ea), hrest⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
